-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x64 : Shape := ⟨2, ![1600000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : FVec F S1600000x64 .f32) (main_arg2 : IVec S2x1600000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S1600000x64 : Shape := ⟨2, ![1600000, 64]⟩
abbrev S2x1600000 : Shape := ⟨2, ![2, 1600000]⟩
abbrev S64x64 : Shape := ⟨2, ![64, 64]⟩
abbrev S64 : Shape := ⟨1, ![64]⟩
abbrev S64x192 : Shape := ⟨2, ![64, 192]⟩
abbrev S192 : Shape := ⟨1, ![192]⟩
abbrev S50000x192 : Shape := ⟨2, ![50000, 192]⟩
abbrev S5000x64 : Shape := ⟨2, ![5000, 64]⟩
abbrev S5000x192 : Shape := ⟨2, ![5000, 192]⟩
abbrev S1x192 : Shape := ⟨2, ![1, 192]⟩
abbrev S50000x4x16 : Shape := ⟨3, ![50000, 4, 16]⟩
abbrev S16000x64 : Shape := ⟨2, ![16000, 64]⟩
abbrev S1x64 : Shape := ⟨2, ![1, 64]⟩
abbrev S1600000x4x16 : Shape := ⟨3, ![1600000, 4, 16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4x1 : Shape := ⟨3, ![1600000, 4, 1]⟩
abbrev S800x4x16 : Shape := ⟨3, ![800, 4, 16]⟩
abbrev S800x4x1 : Shape := ⟨3, ![800, 4, 1]⟩
abbrev S800x4 : Shape := ⟨2, ![800, 4]⟩
abbrev S50000x4x1 : Shape := ⟨3, ![50000, 4, 1]⟩

abbrev nBuf : Space → Nat
  | .hbm => 68
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S2x1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x192, .f32⟩
  | .hbm, ⟨12, _⟩ => ⟨S192, .f32⟩
  | .hbm, ⟨13, _⟩ => ⟨S50000x192, .f32⟩
  | .hbm, ⟨14, _⟩ => ⟨S50000x64, .f32⟩
  | .hbm, ⟨15, _⟩ => ⟨S50000x64, .f32⟩
  | .hbm, ⟨16, _⟩ => ⟨S50000x64, .f32⟩
  | .hbm, ⟨17, _⟩ => ⟨S50000x4x16, .f32⟩
  | .hbm, ⟨18, _⟩ => ⟨S50000x4x16, .f32⟩
  | .hbm, ⟨19, _⟩ => ⟨S50000x4x16, .f32⟩
  | .hbm, ⟨20, _⟩ => ⟨S1600000x64, .f32⟩
  | .hbm, ⟨21, _⟩ => ⟨S1600000x4x16, .f32⟩
  | .hbm, ⟨22, _⟩ => ⟨S1x1600000, .i32⟩
  | .hbm, ⟨23, _⟩ => ⟨S1600000, .i32⟩
  | .hbm, ⟨24, _⟩ => ⟨S1x1600000, .i32⟩
  | .hbm, ⟨25, _⟩ => ⟨S1600000, .i32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x4x16, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x4x16, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x4x16, .f32⟩
  | .hbm, ⟨53, _⟩ => ⟨S1600000x4x16, .f32⟩
  | .hbm, ⟨54, _⟩ => ⟨S1600000x4x1, .f32⟩
  | .hbm, ⟨55, _⟩ => ⟨S_, .f32⟩
  | .hbm, ⟨56, _⟩ => ⟨S50000x4x16, .f32⟩
  | .hbm, ⟨57, _⟩ => ⟨S1600000x1, .i32⟩
  | .hbm, ⟨58, _⟩ => ⟨S50000x4x16, .f32⟩
  | .hbm, ⟨59, _⟩ => ⟨S_, .f32⟩
  | .hbm, ⟨60, _⟩ => ⟨S50000x4x1, .f32⟩
  | .hbm, ⟨61, _⟩ => ⟨S1600000x1, .i32⟩
  | .hbm, ⟨62, _⟩ => ⟨S50000x4x1, .f32⟩
  | .hbm, ⟨63, _⟩ => ⟨S_, .f32⟩
  | .hbm, ⟨64, _⟩ => ⟨S50000x4x1, .f32⟩
  | .hbm, ⟨65, _⟩ => ⟨S50000x4x1, .f32⟩
  | .hbm, ⟨66, _⟩ => ⟨S50000x4x16, .f32⟩
  | .hbm, ⟨67, _⟩ => ⟨S50000x4x16, .f32⟩
  | .local _ .vmem, ⟨0, _⟩ => ⟨S5000x64, .f32⟩
  | .local _ .vmem, ⟨1, _⟩ => ⟨S5000x64, .f32⟩
  | .local _ .vmem, ⟨2, _⟩ => ⟨S64x192, .f32⟩
  | .local _ .vmem, ⟨3, _⟩ => ⟨S192, .f32⟩
  | .local _ .vmem, ⟨4, _⟩ => ⟨S5000x192, .f32⟩
  | .local _ .vmem, ⟨5, _⟩ => ⟨S5000x192, .f32⟩
  | .local _ .vmem, ⟨6, _⟩ => ⟨S16000x64, .f32⟩
  | .local _ .vmem, ⟨7, _⟩ => ⟨S16000x64, .f32⟩
  | .local _ .vmem, ⟨8, _⟩ => ⟨S64x64, .f32⟩
  | .local _ .vmem, ⟨9, _⟩ => ⟨S64, .f32⟩
  | .local _ .vmem, ⟨10, _⟩ => ⟨S16000x64, .f32⟩
  | .local _ .vmem, ⟨11, _⟩ => ⟨S16000x64, .f32⟩
  | .local _ .vmem, ⟨12, _⟩ => ⟨S800x4x16, .f32⟩
  | .local _ .vmem, ⟨13, _⟩ => ⟨S800x4x16, .f32⟩
  | .local _ .vmem, ⟨14, _⟩ => ⟨S800x4x16, .f32⟩
  | .local _ .vmem, ⟨15, _⟩ => ⟨S800x4x16, .f32⟩
  | .local _ .vmem, ⟨16, _⟩ => ⟨S800x4x16, .f32⟩
  | .local _ .vmem, ⟨17, _⟩ => ⟨S800x4x16, .f32⟩
  | .local _ .vmem, ⟨18, _⟩ => ⟨S800x4x16, .f32⟩
  | .local _ .vmem, ⟨19, _⟩ => ⟨S800x4x16, .f32⟩
  | .local _ .vmem, ⟨20, _⟩ => ⟨S800x4x16, .f32⟩
  | .local _ .vmem, ⟨21, _⟩ => ⟨S800x4x16, .f32⟩
  | .local _ .vmem, ⟨22, _⟩ => ⟨S800x4x1, .f32⟩
  | .local _ .vmem, ⟨23, _⟩ => ⟨S800x4x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_cst : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![2000], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S800x4x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S800x4x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S800x4x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S800x4x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S800x4x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S800x4x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S64x64_S64x64_S64x64_S64x192_d1 : Shape.Concatenates [S64x64, S64x64, S64x64] S64x192 1
  concatenates_S64_S64_S64_S192_d0 : Shape.Concatenates [S64, S64, S64] S192 0
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S192_S192_0 : ∀ a, (![0] : Fin 1 → Nat) a + S192.size a ≤ S192.size a
  h_S192 : 0 < S192.numel
  shapeCasts_S192_S192 : S192.ShapeCasts S192
  shapeCasts_S192_S1x192 : S192.ShapeCasts S1x192
  broadcasts_S1x192_S5000x192 : S1x192.Broadcasts S5000x192
  inb_S5000x192_S5000x192_0_0 : ∀ a, (![0, 0] : Fin 2 → Nat) a + S5000x192.size a ≤ S5000x192.size a
  h_S5000x192 : 0 < S5000x192.numel
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  shapeCasts_S50000x64_S50000x4x16 : S50000x64.ShapeCasts S50000x4x16
  inb_S16000x64_S16000x64_0_0 : ∀ a, (![0, 0] : Fin 2 → Nat) a + S16000x64.size a ≤ S16000x64.size a
  h_S16000x64 : 0 < S16000x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S16000x64 : S1x64.Broadcasts S16000x64
  shapeCasts_S1600000x64_S1600000x4x16 : S1600000x64.ShapeCasts S1600000x4x16
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S800x4x16_S800x4x16_0_0_0 : ∀ a, (![0, 0, 0] : Fin 3 → Nat) a + S800x4x16.size a ≤ S800x4x16.size a
  h_S800x4x16 : 0 < S800x4x16.numel
  shapeCasts_S800x4x16_S800x4x16 : S800x4x16.ShapeCasts S800x4x16
  reduces_S800x4x16_S800x4 : S800x4x16.Reduces [2] S800x4
  shapeCasts_S800x4_S800x4x1 : S800x4.ShapeCasts S800x4x1
  broadcasts_S800x4x1_S800x4x16 : S800x4x1.Broadcasts S800x4x16
  inb_S800x4x1_S800x4x1_0_0_0 : ∀ a, (![0, 0, 0] : Fin 3 → Nat) a + S800x4x1.size a ≤ S800x4x1.size a
  h_S800x4x1 : 0 < S800x4x1.numel
  bcast_S_S50000x4x16 : S_.BroadcastsInDim S50000x4x16 (![] : Fin 0 → Fin S50000x4x16.rank)
  bcast_S_S50000x4x1 : S_.BroadcastsInDim S50000x4x1 (![] : Fin 0 → Fin S50000x4x1.rank)
  bcast_S50000x4x1_S50000x4x16_0_1_2 : S50000x4x1.BroadcastsInDim S50000x4x16 (![0, 1, 2] : Fin 3 → Fin S50000x4x16.rank)
  dot_S5000x64_S64x192_S5000x192_1_0_0_1_n_n_wf : DotDims.WF S5000x64 S64x192 S5000x192 [1] [0] [0] [1] [] []
  dot_S16000x64_S64x64_S16000x64_1_0_0_1_n_n_wf : DotDims.WF S16000x64 S64x64 S16000x64 [1] [0] [0] [1] [] []
  gather_S50000x4x16_S1600000x1_S1600000x4x16_12_0_n_n_0_1_1416_wf : GatherDims.WF S50000x4x16 S1600000x1 S1600000x4x16 [1, 2] [0] [] [0] [] 1 ![1, 4, 16]
  scatter_S50000x4x16_S1600000x1_S1600000x4x16_12_0_0_1_wf : ScatterDims.WF S50000x4x16 S1600000x1 S1600000x4x16 [1, 2] [0] [0] 1
  scatter_S50000x4x1_S1600000x1_S1600000x4x1_12_0_0_1_wf : ScatterDims.WF S50000x4x1 S1600000x1 S1600000x4x1 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192.size a ≤ S192.size a
  hwx0_2 : ∀ i : grid0.Coords, EltTy.bits .f32 = 32 ∨ (Rect.block (s := S192) S192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x192.size a ≤ S50000x192.size a
  hwx0_3 : ∀ i : grid0.Coords, EltTy.bits .f32 = 32 ∨ (Rect.block (s := S50000x192) S5000x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S1600000x64.size a
  hwx1_0 : ∀ i : grid1.Coords, EltTy.bits .f32 = 32 ∨ (Rect.block (s := S1600000x64) S16000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x64.size a ≤ S1600000x64.size a
  hwx1_3 : ∀ i : grid1.Coords, EltTy.bits .f32 = 32 ∨ (Rect.block (s := S1600000x64) S16000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S800x4x16.size a ≤ S1600000x4x16.size a
  hwx2_0 : ∀ i : grid2.Coords, EltTy.bits .f32 = 32 ∨ (Rect.block (s := S1600000x4x16) S800x4x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S800x4x16.size a ≤ S1600000x4x16.size a
  hwx2_1 : ∀ i : grid2.Coords, EltTy.bits .f32 = 32 ∨ (Rect.block (s := S1600000x4x16) S800x4x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S800x4x16.size a ≤ S1600000x4x16.size a
  hwx2_2 : ∀ i : grid2.Coords, EltTy.bits .f32 = 32 ∨ (Rect.block (s := S1600000x4x16) S800x4x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S800x4x16.size a ≤ S1600000x4x16.size a
  hwx2_3 : ∀ i : grid2.Coords, EltTy.bits .f32 = 32 ∨ (Rect.block (s := S1600000x4x16) S800x4x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S800x4x16.size a ≤ S1600000x4x16.size a
  hwx2_4 : ∀ i : grid2.Coords, EltTy.bits .f32 = 32 ∨ (Rect.block (s := S1600000x4x16) S800x4x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S800x4x1.size a ≤ S1600000x4x1.size a
  hwx2_5 : ∀ i : grid2.Coords, EltTy.bits .f32 = 32 ∨ (Rect.block (s := S1600000x4x1) S800x4x1.size (cc2_transform_5 i) (hinb2_5 i)).WholeWords (EltTy.packing .f32)

variable [Facts₀]

def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def gather_S50000x4x16_S1600000x1_S1600000x4x16_12_0_n_n_0_1_1416 : GatherDims S50000x4x16 S1600000x1 S1600000x4x16 where
  offsetDims := [1, 2]
  collapsedSliceDims := [0]
  operandBatchingDims := []
  startIndicesBatchingDims := []
  startIndexMap := [0]
  indexVectorDim := 1
  sliceSizes := ![1, 4, 16]
  wf := gather_S50000x4x16_S1600000x1_S1600000x4x16_12_0_n_n_0_1_1416_wf
def scatter_S50000x4x16_S1600000x1_S1600000x4x16_12_0_0_1 : ScatterDims S50000x4x16 S1600000x1 S1600000x4x16 where
  updateWindowDims := [1, 2]
  insertedWindowDims := [0]
  scatterDimsToOperandDims := [0]
  indexVectorDim := 1
  wf := scatter_S50000x4x16_S1600000x1_S1600000x4x16_12_0_0_1_wf
def scatter_S50000x4x1_S1600000x1_S1600000x4x1_12_0_0_1 : ScatterDims S50000x4x1 S1600000x1 S1600000x4x1 where
  updateWindowDims := [1, 2]
  insertedWindowDims := [0]
  scatterDimsToOperandDims := [0]
  indexVectorDim := 1
  wf := scatter_S50000x4x1_S1600000x1_S1600000x4x1_12_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S16000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S800x4x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S800x4x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S800x4x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S800x4x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v36_0) S800x4x16.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v36_1) S800x4x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S1600000x64 : Shape := ⟨2, ![1600000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S50000x4x16 : Shape := ⟨3, ![50000, 4, 16]⟩
abbrev S1600000x4x16 : Shape := ⟨3, ![1600000, 4, 16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x4 : Shape := ⟨2, ![1600000, 4]⟩
abbrev S1600000x4x1 : Shape := ⟨3, ![1600000, 4, 1]⟩
abbrev S50000x4x1 : Shape := ⟨3, ![50000, 4, 1]⟩

abbrev nBuf : Space → Nat
  | .hbm => 94
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S2x1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S50000x64, .f32⟩
  | .hbm, ⟨12, _⟩ => ⟨S1x64, .f32⟩
  | .hbm, ⟨13, _⟩ => ⟨S50000x64, .f32⟩
  | .hbm, ⟨14, _⟩ => ⟨S50000x64, .f32⟩
  | .hbm, ⟨15, _⟩ => ⟨S50000x4x16, .f32⟩
  | .hbm, ⟨16, _⟩ => ⟨S50000x64, .f32⟩
  | .hbm, ⟨17, _⟩ => ⟨S1x64, .f32⟩
  | .hbm, ⟨18, _⟩ => ⟨S50000x64, .f32⟩
  | .hbm, ⟨19, _⟩ => ⟨S50000x64, .f32⟩
  | .hbm, ⟨20, _⟩ => ⟨S50000x4x16, .f32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S50000x64, .f32⟩
  | .hbm, ⟨25, _⟩ => ⟨S50000x4x16, .f32⟩
  | .hbm, ⟨26, _⟩ => ⟨S1600000x64, .f32⟩
  | .hbm, ⟨27, _⟩ => ⟨S1x64, .f32⟩
  | .hbm, ⟨28, _⟩ => ⟨S1600000x64, .f32⟩
  | .hbm, ⟨29, _⟩ => ⟨S1600000x64, .f32⟩
  | .hbm, ⟨30, _⟩ => ⟨S1600000x4x16, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x4x16, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x4x16, .f32⟩
  | .hbm, ⟨53, _⟩ => ⟨S1600000x4x16, .f32⟩
  | .hbm, ⟨54, _⟩ => ⟨S_, .f32⟩
  | .hbm, ⟨55, _⟩ => ⟨S1600000x4x16, .f32⟩
  | .hbm, ⟨56, _⟩ => ⟨S1600000x4x16, .f32⟩
  | .hbm, ⟨57, _⟩ => ⟨S1600000x4x16, .f32⟩
  | .hbm, ⟨58, _⟩ => ⟨S_, .f32⟩
  | .hbm, ⟨59, _⟩ => ⟨S1600000x4, .f32⟩
  | .hbm, ⟨60, _⟩ => ⟨S1600000x4x1, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1600000x4x1, .f32⟩
  | .hbm, ⟨65, _⟩ => ⟨S1600000x4x1, .f32⟩
  | .hbm, ⟨66, _⟩ => ⟨S_, .f32⟩
  | .hbm, ⟨67, _⟩ => ⟨S1600000x4x1, .f32⟩
  | .hbm, ⟨68, _⟩ => ⟨S1600000x4x1, .f32⟩
  | .hbm, ⟨69, _⟩ => ⟨S1600000x4x1, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x4x16, .f32⟩
  | .hbm, ⟨79, _⟩ => ⟨S1600000x4x16, .f32⟩
  | .hbm, ⟨80, _⟩ => ⟨S1600000x4x16, .f32⟩
  | .hbm, ⟨81, _⟩ => ⟨S_, .f32⟩
  | .hbm, ⟨82, _⟩ => ⟨S50000x4x16, .f32⟩
  | .hbm, ⟨83, _⟩ => ⟨S1600000x1, .i32⟩
  | .hbm, ⟨84, _⟩ => ⟨S50000x4x16, .f32⟩
  | .hbm, ⟨85, _⟩ => ⟨S_, .f32⟩
  | .hbm, ⟨86, _⟩ => ⟨S50000x4x1, .f32⟩
  | .hbm, ⟨87, _⟩ => ⟨S1600000x1, .i32⟩
  | .hbm, ⟨88, _⟩ => ⟨S50000x4x1, .f32⟩
  | .hbm, ⟨89, _⟩ => ⟨S_, .f32⟩
  | .hbm, ⟨90, _⟩ => ⟨S50000x4x1, .f32⟩
  | .hbm, ⟨91, _⟩ => ⟨S50000x4x1, .f32⟩
  | .hbm, ⟨92, _⟩ => ⟨S50000x4x16, .f32⟩
  | .hbm, ⟨93, _⟩ => ⟨S50000x4x16, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_c_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_1 : Ref sig .tc := ⟨.hbm, 44, rfl⟩
abbrev main_v31 : Ref sig .tc := ⟨.hbm, 45, rfl⟩
abbrev main_v32 : Ref sig .tc := ⟨.hbm, 46, rfl⟩
abbrev main_c_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_cst_4 : Ref sig .tc := ⟨.hbm, 61, rfl⟩
abbrev main_cst_5 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v44 : Ref sig .tc := ⟨.hbm, 68, rfl⟩
abbrev main_v45 : Ref sig .tc := ⟨.hbm, 69, rfl⟩
abbrev main_c_6 : Ref sig .tc := ⟨.hbm, 70, rfl⟩
abbrev main_v46 : Ref sig .tc := ⟨.hbm, 71, rfl⟩
abbrev main_v47 : Ref sig .tc := ⟨.hbm, 72, rfl⟩
abbrev main_c_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S50000x64_S50000x4x16 : S50000x64.ShapeCasts S50000x4x16
  bcast_S1x64_S1600000x64_0_1 : S1x64.BroadcastsInDim S1600000x64 (![0, 1] : Fin 2 → Fin S1600000x64.rank)
  shapeCasts_S1600000x64_S1600000x4x16 : S1600000x64.ShapeCasts S1600000x4x16
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x4x16 : S_.BroadcastsInDim S1600000x4x16 (![] : Fin 0 → Fin S1600000x4x16.rank)
  reducesTo_S1600000x4x16_S1600000x4_d2 : S1600000x4x16.ReducesTo [2] S1600000x4
  h_S_ : 0 < S_.numel
  bcast_S1600000x4_S1600000x4x1_0_1 : S1600000x4.BroadcastsInDim S1600000x4x1 (![0, 1] : Fin 2 → Fin S1600000x4x1.rank)
  bcast_S_S1600000x4x1 : S_.BroadcastsInDim S1600000x4x1 (![] : Fin 0 → Fin S1600000x4x1.rank)
  bcast_S1600000x4x1_S1600000x4x16_0_1_2 : S1600000x4x1.BroadcastsInDim S1600000x4x16 (![0, 1, 2] : Fin 3 → Fin S1600000x4x16.rank)
  bcast_S_S50000x4x16 : S_.BroadcastsInDim S50000x4x16 (![] : Fin 0 → Fin S50000x4x16.rank)
  bcast_S_S50000x4x1 : S_.BroadcastsInDim S50000x4x1 (![] : Fin 0 → Fin S50000x4x1.rank)
  bcast_S50000x4x1_S50000x4x16_0_1_2 : S50000x4x1.BroadcastsInDim S50000x4x16 (![0, 1, 2] : Fin 3 → Fin S50000x4x16.rank)
  dot_S50000x64_S64x64_S50000x64_1_0_0_1_n_n_wf : DotDims.WF S50000x64 S64x64 S50000x64 [1] [0] [0] [1] [] []
  dot_S1600000x64_S64x64_S1600000x64_1_0_0_1_n_n_wf : DotDims.WF S1600000x64 S64x64 S1600000x64 [1] [0] [0] [1] [] []
  gather_S50000x4x16_S1600000x1_S1600000x4x16_12_0_n_n_0_1_1416_wf : GatherDims.WF S50000x4x16 S1600000x1 S1600000x4x16 [1, 2] [0] [] [0] [] 1 ![1, 4, 16]
  scatter_S50000x4x16_S1600000x1_S1600000x4x16_12_0_0_1_wf : ScatterDims.WF S50000x4x16 S1600000x1 S1600000x4x16 [1, 2] [0] [0] 1
  scatter_S50000x4x1_S1600000x1_S1600000x4x1_12_0_0_1_wf : ScatterDims.WF S50000x4x1 S1600000x1 S1600000x4x1 [1, 2] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S50000x4x16_S1600000x1_S1600000x4x16_12_0_n_n_0_1_1416 : GatherDims S50000x4x16 S1600000x1 S1600000x4x16 where
  offsetDims := [1, 2]
  collapsedSliceDims := [0]
  operandBatchingDims := []
  startIndicesBatchingDims := []
  startIndexMap := [0]
  indexVectorDim := 1
  sliceSizes := ![1, 4, 16]
  wf := gather_S50000x4x16_S1600000x1_S1600000x4x16_12_0_n_n_0_1_1416_wf
def scatter_S50000x4x16_S1600000x1_S1600000x4x16_12_0_0_1 : ScatterDims S50000x4x16 S1600000x1 S1600000x4x16 where
  updateWindowDims := [1, 2]
  insertedWindowDims := [0]
  scatterDimsToOperandDims := [0]
  indexVectorDim := 1
  wf := scatter_S50000x4x16_S1600000x1_S1600000x4x16_12_0_0_1_wf
def scatter_S50000x4x1_S1600000x1_S1600000x4x1_12_0_0_1 : ScatterDims S50000x4x1 S1600000x1 S1600000x4x1 where
  updateWindowDims := [1, 2]
  insertedWindowDims := [0]
  scatterDimsToOperandDims := [0]
  indexVectorDim := 1
  wf := scatter_S50000x4x1_S1600000x1_S1600000x4x1_12_0_0_1_wf

class Facts : Prop extends Facts₀ where

variable [Facts]
-- ==== Proof.KRegion0.lean ====
/-
  The node projection's region, for any contents `V` the region is entered from.

  A grid point takes one block of rows of the left operand, the whole weight matrix and the whole bias vector, and
  leaves in the output block the product plus the bias: the body loads the three blocks whole, computes that one value
  and stores it whole, so what the output's staging buffer holds after the body is that value of the three input
  blocks, whatever it held before.  From this the pipeline's proof data follow: every input buffer holds its block at
  every point, and the body's triple at a point is the body obligation the launch theorem asks for.
-/
import proofs.«113294_j27779848470630_2_alg».proof.Proof.Gen.Kernel.Launch
import proofs.«113294_j27779848470630_2_alg».proof.Proof.Gen.Kernel.Skeleton
import proofs.«113294_j27779848470630_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose block
    index does not move is fetched once and keeps its block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: every buffer whole. -/
abbrev r0_0 : Rect S5000x64 := Rect.unit (s := S5000x64) ![0, 0] S5000x64.size inb_S5000x64_S5000x64_0_0
abbrev r0_1 : Rect S64x192 := Rect.unit (s := S64x192) ![0, 0] S64x192.size inb_S64x192_S64x192_0_0
abbrev r0_2 : Rect S192 := Rect.unit (s := S192) ![0] S192.size inb_S192_S192_0
abbrev r0_3 : Rect S5000x192 := Rect.unit (s := S5000x192) ![0, 0] S5000x192.size inb_S5000x192_S5000x192_0_0

/-- The output window's staging buffer after the body, from the input blocks: its one store, of the payload of the
    three loads. -/
def out0_3 (x0 : Vec F S5000x64 .f32) (x1 : Vec F S64x192 .f32) (x2 : Vec F S192 .f32) : Vec F S5000x192 .f32 :=
  View.canon [⟨r0_3, k0_pay1 (View.ld x0 r0_0) (View.ld x1 r0_1) (View.ld x2 r0_2)⟩]

/-- The one store covers the buffer. -/
theorem cover0_3 (p0 : Vec F S5000x192 .f32) (y : S5000x192.Idx) :
    ∃ pc ∈ ([⟨r0_3, p0⟩] : List (View.Piece (Elt F) S5000x192 .f32)), y ∈ pc.1.set :=
  View.cover_of_tiled [⟨r0_3, p0⟩] S5000x192.size (by rfl) y

set_option maxHeartbeats 1000000 in
/-- The body on whole staging memrefs, the inputs' at contents `x0 x1 x2` and the output's at anything, runs to the
    continuation with the inputs' as they were and the output's at `out0_3 x0 x1 x2`. -/
theorem sound_kernel0 (c : Dev nD) (E : Set ℕ) (i : grid0.Coords) (arg1 : Memref sig .tc .vmem S5000x64 .f32) (harg1 : arg1.IsWhole) (arg2 : Memref sig .tc .vmem S64x192 .f32) (harg2 : arg2.IsWhole) (arg3 : Memref sig .tc .vmem S192 .f32) (harg3 : arg3.IsWhole) (arg4 : Memref sig .tc .vmem S5000x192 .f32) (harg4 : arg4.IsWhole)
    (x0 : Vec F S5000x64 .f32) (x1 : Vec F S64x192 .f32) (x2 : Vec F S192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KRegion1.lean ====
/-
  The edge projection's region, for any contents `V` the region is entered from.

  A grid point takes one block of rows of the left operand, the whole weight matrix and the whole bias vector, and
  leaves in the output block the product plus the bias: the body loads the three blocks whole, computes that one value
  and stores it whole, so what the output's staging buffer holds after the body is that value of the three input
  blocks, whatever it held before.  From this the pipeline's proof data follow: every input buffer holds its block at
  every point, and the body's triple at a point is the body obligation the launch theorem asks for.
-/
import proofs.«113294_j27779848470630_2_alg».proof.Proof.Gen.Kernel.Launch
import proofs.«113294_j27779848470630_2_alg».proof.Proof.Gen.Kernel.Skeleton
import proofs.«113294_j27779848470630_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose block
    index does not move is fetched once and keeps its block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: every buffer whole. -/
abbrev r1_0 : Rect S16000x64 := Rect.unit (s := S16000x64) ![0, 0] S16000x64.size inb_S16000x64_S16000x64_0_0
abbrev r1_1 : Rect S64x64 := Rect.unit (s := S64x64) ![0, 0] S64x64.size inb_S64x64_S64x64_0_0
abbrev r1_2 : Rect S64 := Rect.unit (s := S64) ![0] S64.size inb_S64_S64_0
abbrev r1_3 : Rect S16000x64 := Rect.unit (s := S16000x64) ![0, 0] S16000x64.size inb_S16000x64_S16000x64_0_0

/-- The output window's staging buffer after the body, from the input blocks: its one store, of the payload of the
    three loads. -/
def out1_3 (x0 : Vec F S16000x64 .f32) (x1 : Vec F S64x64 .f32) (x2 : Vec F S64 .f32) : Vec F S16000x64 .f32 :=
  View.canon [⟨r1_3, k1_pay1 (View.ld x0 r1_0) (View.ld x1 r1_1) (View.ld x2 r1_2)⟩]

/-- The one store covers the buffer. -/
theorem cover1_3 (p0 : Vec F S16000x64 .f32) (y : S16000x64.Idx) :
    ∃ pc ∈ ([⟨r1_3, p0⟩] : List (View.Piece (Elt F) S16000x64 .f32)), y ∈ pc.1.set :=
  View.cover_of_tiled [⟨r1_3, p0⟩] S16000x64.size (by rfl) y

set_option maxHeartbeats 1000000 in
/-- The body on whole staging memrefs, the inputs' at contents `x0 x1 x2` and the output's at anything, runs to the
    continuation with the inputs' as they were and the output's at `out1_3 x0 x1 x2`. -/
theorem sound_kernel1 (c : Dev nD) (E : Set ℕ) (i : grid1.Coords) (arg1 : Memref sig .tc .vmem S16000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S16000x64 .f32) (harg4 : arg4.IsWhole)
    (x0 : Vec F S16000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the output's at `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KRegion2.lean ====
/-
  The score / message region, for any contents `V` the region is entered from.

  A grid point takes one block of 800 edges of each of the four gathered arrays (keys, queries, values, edge features)
  and leaves two blocks: the messages (values times the score, spread over the last axis) and the scores.  The body
  loads the four blocks whole and stores each of the two values whole, so what each output's staging buffer holds after
  the body is that value of the input blocks, whatever it held before.  From this the pipeline's proof data follow
  as for the projections.
-/
import proofs.«113294_j27779848470630_2_alg».proof.Proof.Gen.Kernel.Launch
import proofs.«113294_j27779848470630_2_alg».proof.Proof.Gen.Kernel.Skeleton
import proofs.«113294_j27779848470630_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: every buffer whole. -/
abbrev r2_0 : Rect S800x4x16 := Rect.unit (s := S800x4x16) ![0, 0, 0] S800x4x16.size inb_S800x4x16_S800x4x16_0_0_0
abbrev r2_5 : Rect S800x4x1 := Rect.unit (s := S800x4x1) ![0, 0, 0] S800x4x1.size inb_S800x4x1_S800x4x1_0_0_0

/-- The message window's staging buffer after the body: its one store, of the message payload of the four loads. -/
def out2_4 (x0 x1 x2 x3 : Vec F S800x4x16 .f32) : Vec F S800x4x16 .f32 :=
  View.canon [⟨r2_0, k2_pay2 (View.ld x0 r2_0) (View.ld x1 r2_0) (View.ld x2 r2_0) (View.ld x3 r2_0)⟩]

/-- The score window's staging buffer after the body: its one store, of the score payload of the keys', queries' and
    edge features' loads. -/
def out2_5 (x0 x1 x3 : Vec F S800x4x16 .f32) : Vec F S800x4x1 .f32 :=
  View.canon [⟨r2_5, k2_pay1 (View.ld x0 r2_0) (View.ld x1 r2_0) (View.ld x3 r2_0)⟩]

theorem cover2_4 (p0 : Vec F S800x4x16 .f32) (y : S800x4x16.Idx) :
    ∃ pc ∈ ([⟨r2_0, p0⟩] : List (View.Piece (Elt F) S800x4x16 .f32)), y ∈ pc.1.set :=
  View.cover_of_tiled [⟨r2_0, p0⟩] S800x4x16.size (by rfl) y
theorem cover2_5 (p0 : Vec F S800x4x1 .f32) (y : S800x4x1.Idx) :
    ∃ pc ∈ ([⟨r2_5, p0⟩] : List (View.Piece (Elt F) S800x4x1 .f32)), y ∈ pc.1.set :=
  View.cover_of_tiled [⟨r2_5, p0⟩] S800x4x1.size (by rfl) y

set_option maxHeartbeats 1000000 in
/-- The body on whole staging memrefs, the inputs' at contents `x0 … x3` and the outputs' at anything, runs to the
    continuation with the inputs' as they were and the outputs' at `out2_4`, `out2_5` of them. -/
theorem sound_kernel2 (c : Dev nD) (E : Set ℕ) (i : grid2.Coords) (arg1 : Memref sig .tc .vmem S800x4x16 .f32) (harg1 : arg1.IsWhole) (arg2 : Memref sig .tc .vmem S800x4x16 .f32) (harg2 : arg2.IsWhole) (arg3 : Memref sig .tc .vmem S800x4x16 .f32) (harg3 : arg3.IsWhole) (arg4 : Memref sig .tc .vmem S800x4x16 .f32) (harg4 : arg4.IsWhole) (arg5 : Memref sig .tc .vmem S800x4x16 .f32) (harg5 : arg5.IsWhole) (arg6 : Memref sig .tc .vmem S800x4x1 .f32) (harg6 : arg6.IsWhole)
    (x0 x1 x2 x3 : Vec F S800x4x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out2_4 x0 x1 x2 x3) ∗ owns (c : Thread nD τ) arg6 fullShare (out2_5 x0 x1 x3)) -∗ K ⟨⟩))
      ⊢ wp frame (wpE (defs₀ (F := F)) Variants.none c none) E (cc2__score_msg_kernel i arg1 harg1 arg2 harg2 arg3 harg3 arg4 harg4 arg5 harg5 arg6 harg6) K := by
  simp only [cc2__score_msg_kernel_eq_skeleton]; unfold cc2__score_msg_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-- The pipeline's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KRun.lean ====
/-
  The whole run of @main: four stretches of host operations around the three kernel regions.

  The contents of the unscoped buffers at each boundary are a fold from the launch memory: a host stretch applies its
  operations, a region leaves each of its input arrays as entered and each output array at what its blocks' write-backs
  leave, and touches nothing else.  Every argument array walks back through the fold to its launch contents, because no
  host operation writes one and every region only reads those it stages.  Each region is entered from, and left at,
  the thread state "every unscoped buffer at the boundary's contents, the generator register at some state, nothing
  owed"; the launch makes the first such state and the last is read against the final memory, which gives every
  unscoped buffer's final contents — the arguments' and the result's.
-/
import proofs.«113294_j27779848470630_2_alg».proof.Proof.Gen.Kernel.Launch
import proofs.«113294_j27779848470630_2_alg».proof.Proof.Gen.Kernel.Skeleton
import proofs.«113294_j27779848470630_2_alg».proof.Proof.Gen.Kernel.Points
import proofs.«113294_j27779848470630_2_alg».proof.Proof.Gen.Kernel.Regions
import proofs.«113294_j27779848470630_2_alg».proof.Proof.KRegion0
import proofs.«113294_j27779848470630_2_alg».proof.Proof.KRegion1
import proofs.«113294_j27779848470630_2_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output its blocks' write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Input window 0's array leaves the region as it entered. -/
theorem W2_in0 (c : Dev nD) :
    W2 m ρ c (Proc.devRef .tc (Pipeline.arrRef spec0 0)) = W1 m ρ c (Proc.devRef .tc (Pipeline.arrRef spec0 0)) :=
  (W2_arr m ρ c 0).trans (((dat0 (V1 m ρ) c).arrAt_in 0 rfl _).trans (A_eq0 (V1 m ρ) c 0))
/-- Input window 1's array leaves the region as it entered. -/
theorem W2_in1 (c : Dev nD) :
    W2 m ρ c (Proc.devRef .tc (Pipeline.arrRef spec0 1)) = W1 m ρ c (Proc.devRef .tc (Pipeline.arrRef spec0 1)) :=
  (W2_arr m ρ c 1).trans (((dat0 (V1 m ρ) c).arrAt_in 1 rfl _).trans (A_eq0 (V1 m ρ) c 1))
/-- Input window 2's array leaves the region as it entered. -/
theorem W2_in2 (c : Dev nD) :
    W2 m ρ c (Proc.devRef .tc (Pipeline.arrRef spec0 2)) = W1 m ρ c (Proc.devRef .tc (Pipeline.arrRef spec0 2)) :=
  (W2_arr m ρ c 2).trans (((dat0 (V1 m ρ) c).arrAt_in 2 rfl _).trans (A_eq0 (V1 m ρ) c 2))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, an output its blocks' write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Input window 0's array leaves the region as it entered. -/
theorem W4_in0 (c : Dev nD) :
    W4 m ρ c (Proc.devRef .tc (Pipeline.arrRef spec1 0)) = W3 m ρ c (Proc.devRef .tc (Pipeline.arrRef spec1 0)) :=
  (W4_arr m ρ c 0).trans (((dat1 (V3 m ρ) c).arrAt_in 0 rfl _).trans (A_eq1 (V3 m ρ) c 0))
/-- Input window 1's array leaves the region as it entered. -/
theorem W4_in1 (c : Dev nD) :
    W4 m ρ c (Proc.devRef .tc (Pipeline.arrRef spec1 1)) = W3 m ρ c (Proc.devRef .tc (Pipeline.arrRef spec1 1)) :=
  (W4_arr m ρ c 1).trans (((dat1 (V3 m ρ) c).arrAt_in 1 rfl _).trans (A_eq1 (V3 m ρ) c 1))
/-- Input window 2's array leaves the region as it entered. -/
theorem W4_in2 (c : Dev nD) :
    W4 m ρ c (Proc.devRef .tc (Pipeline.arrRef spec1 2)) = W3 m ρ c (Proc.devRef .tc (Pipeline.arrRef spec1 2)) :=
  (W4_arr m ρ c 2).trans (((dat1 (V3 m ρ) c).arrAt_in 2 rfl _).trans (A_eq1 (V3 m ρ) c 2))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (an input as entered, an output its blocks' write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- Input window 0's array leaves the region as it entered. -/
theorem W6_in0 (c : Dev nD) :
    W6 m ρ c (Proc.devRef .tc (Pipeline.arrRef spec2 0)) = W5 m ρ c (Proc.devRef .tc (Pipeline.arrRef spec2 0)) :=
  (W6_arr m ρ c 0).trans (((dat2 (V5 m ρ) c).arrAt_in 0 rfl _).trans (A_eq2 (V5 m ρ) c 0))
/-- Input window 1's array leaves the region as it entered. -/
theorem W6_in1 (c : Dev nD) :
    W6 m ρ c (Proc.devRef .tc (Pipeline.arrRef spec2 1)) = W5 m ρ c (Proc.devRef .tc (Pipeline.arrRef spec2 1)) :=
  (W6_arr m ρ c 1).trans (((dat2 (V5 m ρ) c).arrAt_in 1 rfl _).trans (A_eq2 (V5 m ρ) c 1))
/-- Input window 2's array leaves the region as it entered. -/
theorem W6_in2 (c : Dev nD) :
    W6 m ρ c (Proc.devRef .tc (Pipeline.arrRef spec2 2)) = W5 m ρ c (Proc.devRef .tc (Pipeline.arrRef spec2 2)) :=
  (W6_arr m ρ c 2).trans (((dat2 (V5 m ρ) c).arrAt_in 2 rfl _).trans (A_eq2 (V5 m ρ) c 2))
/-- Input window 3's array leaves the region as it entered. -/
theorem W6_in3 (c : Dev nD) :
    W6 m ρ c (Proc.devRef .tc (Pipeline.arrRef spec2 3)) = W5 m ρ c (Proc.devRef .tc (Pipeline.arrRef spec2 3)) :=
  (W6_arr m ρ c 3).trans (((dat2 (V5 m ρ) c).arrAt_in 3 rfl _).trans (A_eq2 (V5 m ρ) c 3))
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the final contents. -/
abbrev W7 : Dev nD → Valuation τ sig (Elt F) := fun c => StableHlo.after hostOps3 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_in0 m ρ c
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_in0 m ρ c
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_in1 m ρ c
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_in2 m ρ c
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at
    some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last fold's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps3 (W6 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c)⟩) (run m ρ)

end Cert.Kernel.Frame

end
-- ==== Proof.KiRegion0.lean ====
/-
  The node projection's region, for any contents `V` the region is entered from.

  A grid point takes one block of rows of the left operand, the whole weight matrix and the whole bias vector, and
  leaves in the output block the product plus the bias: the body loads the three blocks whole, computes that one value
  and stores it whole, so what the output's staging buffer holds after the body is that value of the three input
  blocks, whatever it held before.  From this the pipeline's proof data follow: every input buffer holds its block at
  every point, and the body's triple at a point is the body obligation the launch theorem asks for.
-/
import proofs.«113294_j27779848470630_2_alg».proof.Proof.Gen.KernelIdeal.Launch
import proofs.«113294_j27779848470630_2_alg».proof.Proof.Gen.KernelIdeal.Skeleton
import proofs.«113294_j27779848470630_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose block
    index does not move is fetched once and keeps its block). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's accesses: every buffer whole. -/
abbrev r0_0 : Rect S5000x64 := Rect.unit (s := S5000x64) ![0, 0] S5000x64.size inb_S5000x64_S5000x64_0_0
abbrev r0_1 : Rect S64x192 := Rect.unit (s := S64x192) ![0, 0] S64x192.size inb_S64x192_S64x192_0_0
abbrev r0_2 : Rect S192 := Rect.unit (s := S192) ![0] S192.size inb_S192_S192_0
abbrev r0_3 : Rect S5000x192 := Rect.unit (s := S5000x192) ![0, 0] S5000x192.size inb_S5000x192_S5000x192_0_0

/-- The output window's staging buffer after the body, from the input blocks: its one store, of the payload of the
    three loads. -/
def out0_3 (x0 : Vec F S5000x64 .f32) (x1 : Vec F S64x192 .f32) (x2 : Vec F S192 .f32) : Vec F S5000x192 .f32 :=
  View.canon [⟨r0_3, k0_pay1 (View.ld x0 r0_0) (View.ld x1 r0_1) (View.ld x2 r0_2)⟩]

/-- The one store covers the buffer. -/
theorem cover0_3 (p0 : Vec F S5000x192 .f32) (y : S5000x192.Idx) :
    ∃ pc ∈ ([⟨r0_3, p0⟩] : List (View.Piece (Elt F) S5000x192 .f32)), y ∈ pc.1.set :=
  View.cover_of_tiled [⟨r0_3, p0⟩] S5000x192.size (by rfl) y

set_option maxHeartbeats 1000000 in
/-- The body on whole staging memrefs, the inputs' at contents `x0 x1 x2` and the output's at anything, runs to the
    continuation with the inputs' as they were and the output's at `out0_3 x0 x1 x2`. -/
theorem sound_kernel0 (c : Dev nD) (E : Set ℕ) (i : grid0.Coords) (arg1 : Memref sig .tc .vmem S5000x64 .f32) (harg1 : arg1.IsWhole) (arg2 : Memref sig .tc .vmem S64x192 .f32) (harg2 : arg2.IsWhole) (arg3 : Memref sig .tc .vmem S192 .f32) (harg3 : arg3.IsWhole) (arg4 : Memref sig .tc .vmem S5000x192 .f32) (harg4 : arg4.IsWhole)
    (x0 : Vec F S5000x64 .f32) (x1 : Vec F S64x192 .f32) (x2 : Vec F S192 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each
    input's buffer at its block and the output's at `out0_3` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KiRegion1.lean ====
/-
  The edge projection's region, for any contents `V` the region is entered from.

  A grid point takes one block of rows of the left operand, the whole weight matrix and the whole bias vector, and
  leaves in the output block the product plus the bias: the body loads the three blocks whole, computes that one value
  and stores it whole, so what the output's staging buffer holds after the body is that value of the three input
  blocks, whatever it held before.  From this the pipeline's proof data follow: every input buffer holds its block at
  every point, and the body's triple at a point is the body obligation the launch theorem asks for.
-/
import proofs.«113294_j27779848470630_2_alg».proof.Proof.Gen.KernelIdeal.Launch
import proofs.«113294_j27779848470630_2_alg».proof.Proof.Gen.KernelIdeal.Skeleton
import proofs.«113294_j27779848470630_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose block
    index does not move is fetched once and keeps its block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's accesses: every buffer whole. -/
abbrev r1_0 : Rect S16000x64 := Rect.unit (s := S16000x64) ![0, 0] S16000x64.size inb_S16000x64_S16000x64_0_0
abbrev r1_1 : Rect S64x64 := Rect.unit (s := S64x64) ![0, 0] S64x64.size inb_S64x64_S64x64_0_0
abbrev r1_2 : Rect S64 := Rect.unit (s := S64) ![0] S64.size inb_S64_S64_0
abbrev r1_3 : Rect S16000x64 := Rect.unit (s := S16000x64) ![0, 0] S16000x64.size inb_S16000x64_S16000x64_0_0

/-- The output window's staging buffer after the body, from the input blocks: its one store, of the payload of the
    three loads. -/
def out1_3 (x0 : Vec F S16000x64 .f32) (x1 : Vec F S64x64 .f32) (x2 : Vec F S64 .f32) : Vec F S16000x64 .f32 :=
  View.canon [⟨r1_3, k1_pay1 (View.ld x0 r1_0) (View.ld x1 r1_1) (View.ld x2 r1_2)⟩]

/-- The one store covers the buffer. -/
theorem cover1_3 (p0 : Vec F S16000x64 .f32) (y : S16000x64.Idx) :
    ∃ pc ∈ ([⟨r1_3, p0⟩] : List (View.Piece (Elt F) S16000x64 .f32)), y ∈ pc.1.set :=
  View.cover_of_tiled [⟨r1_3, p0⟩] S16000x64.size (by rfl) y

set_option maxHeartbeats 1000000 in
/-- The body on whole staging memrefs, the inputs' at contents `x0 x1 x2` and the output's at anything, runs to the
    continuation with the inputs' as they were and the output's at `out1_3 x0 x1 x2`. -/
theorem sound_kernel1 (c : Dev nD) (E : Set ℕ) (i : grid1.Coords) (arg1 : Memref sig .tc .vmem S16000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S16000x64 .f32) (harg4 : arg4.IsWhole)
    (x0 : Vec F S16000x64 .f32) (x1 : Vec F S64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__proj_kernel i arg1 harg1 arg2 harg2 arg3 harg3 arg4 harg4) K := by
  simp only [cc1__proj_kernel_eq_skeleton]; unfold cc1__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each
    input's buffer at its block and the output's at `out1_3` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KiRegion2.lean ====
/-
  The score / message region, for any contents `V` the region is entered from.

  A grid point takes one block of 800 edges of each of the four gathered arrays (keys, queries, values, edge features)
  and leaves two blocks: the messages (values times the score, spread over the last axis) and the scores.  The body
  loads the four blocks whole and stores each of the two values whole, so what each output's staging buffer holds after
  the body is that value of the input blocks, whatever it held before.  From this the pipeline's proof data follow
  as for the projections.
-/
import proofs.«113294_j27779848470630_2_alg».proof.Proof.Gen.KernelIdeal.Launch
import proofs.«113294_j27779848470630_2_alg».proof.Proof.Gen.KernelIdeal.Skeleton
import proofs.«113294_j27779848470630_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The body's accesses: every buffer whole. -/
abbrev r2_0 : Rect S800x4x16 := Rect.unit (s := S800x4x16) ![0, 0, 0] S800x4x16.size inb_S800x4x16_S800x4x16_0_0_0
abbrev r2_5 : Rect S800x4x1 := Rect.unit (s := S800x4x1) ![0, 0, 0] S800x4x1.size inb_S800x4x1_S800x4x1_0_0_0

/-- The message window's staging buffer after the body: its one store, of the message payload of the four loads. -/
def out2_4 (x0 x1 x2 x3 : Vec F S800x4x16 .f32) : Vec F S800x4x16 .f32 :=
  View.canon [⟨r2_0, k2_pay2 (View.ld x0 r2_0) (View.ld x1 r2_0) (View.ld x2 r2_0) (View.ld x3 r2_0)⟩]

/-- The score window's staging buffer after the body: its one store, of the score payload of the keys', queries' and
    edge features' loads. -/
def out2_5 (x0 x1 x3 : Vec F S800x4x16 .f32) : Vec F S800x4x1 .f32 :=
  View.canon [⟨r2_5, k2_pay1 (View.ld x0 r2_0) (View.ld x1 r2_0) (View.ld x3 r2_0)⟩]

theorem cover2_4 (p0 : Vec F S800x4x16 .f32) (y : S800x4x16.Idx) :
    ∃ pc ∈ ([⟨r2_0, p0⟩] : List (View.Piece (Elt F) S800x4x16 .f32)), y ∈ pc.1.set :=
  View.cover_of_tiled [⟨r2_0, p0⟩] S800x4x16.size (by rfl) y
theorem cover2_5 (p0 : Vec F S800x4x1 .f32) (y : S800x4x1.Idx) :
    ∃ pc ∈ ([⟨r2_5, p0⟩] : List (View.Piece (Elt F) S800x4x1 .f32)), y ∈ pc.1.set :=
  View.cover_of_tiled [⟨r2_5, p0⟩] S800x4x1.size (by rfl) y

set_option maxHeartbeats 1000000 in
/-- The body on whole staging memrefs, the inputs' at contents `x0 … x3` and the outputs' at anything, runs to the
    continuation with the inputs' as they were and the outputs' at `out2_4`, `out2_5` of them. -/
theorem sound_kernel2 (c : Dev nD) (E : Set ℕ) (i : grid2.Coords) (arg1 : Memref sig .tc .vmem S800x4x16 .f32) (harg1 : arg1.IsWhole) (arg2 : Memref sig .tc .vmem S800x4x16 .f32) (harg2 : arg2.IsWhole) (arg3 : Memref sig .tc .vmem S800x4x16 .f32) (harg3 : arg3.IsWhole) (arg4 : Memref sig .tc .vmem S800x4x16 .f32) (harg4 : arg4.IsWhole) (arg5 : Memref sig .tc .vmem S800x4x16 .f32) (harg5 : arg5.IsWhole) (arg6 : Memref sig .tc .vmem S800x4x1 .f32) (harg6 : arg6.IsWhole)
    (x0 x1 x2 x3 : Vec F S800x4x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out2_4 x0 x1 x2 x3) ∗ owns (c : Thread nD τ) arg6 fullShare (out2_5 x0 x1 x3)) -∗ K ⟨⟩))
      ⊢ wp frame (wpE (defs₀ (F := F)) Variants.none c none) E (cc2__score_msg_kernel i arg1 harg1 arg2 harg2 arg3 harg3 arg4 harg4 arg5 harg5 arg6 harg6) K := by
  simp only [cc2__score_msg_kernel_eq_skeleton]; unfold cc2__score_msg_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-- The pipeline's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KiRun.lean ====
/-
  The whole run of @main: four stretches of host operations around the three kernel regions.

  The contents of the unscoped buffers at each boundary are a fold from the launch memory: a host stretch applies its
  operations, a region leaves each of its input arrays as entered and each output array at what its blocks' write-backs
  leave, and touches nothing else.  Every argument array walks back through the fold to its launch contents, because no
  host operation writes one and every region only reads those it stages.  Each region is entered from, and left at,
  the thread state "every unscoped buffer at the boundary's contents, the generator register at some state, nothing
  owed"; the launch makes the first such state and the last is read against the final memory, which gives every
  unscoped buffer's final contents — the arguments' and the result's.
-/
import proofs.«113294_j27779848470630_2_alg».proof.Proof.Gen.KernelIdeal.Launch
import proofs.«113294_j27779848470630_2_alg».proof.Proof.Gen.KernelIdeal.Skeleton
import proofs.«113294_j27779848470630_2_alg».proof.Proof.Gen.KernelIdeal.Points
import proofs.«113294_j27779848470630_2_alg».proof.Proof.Gen.KernelIdeal.Regions
import proofs.«113294_j27779848470630_2_alg».proof.Proof.KiRegion0
import proofs.«113294_j27779848470630_2_alg».proof.Proof.KiRegion1
import proofs.«113294_j27779848470630_2_alg».proof.Proof.KiRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output its blocks' write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Input window 0's array leaves the region as it entered. -/
theorem W2_in0 (c : Dev nD) :
    W2 m ρ c (Proc.devRef .tc (Pipeline.arrRef spec0 0)) = W1 m ρ c (Proc.devRef .tc (Pipeline.arrRef spec0 0)) :=
  (W2_arr m ρ c 0).trans (((dat0 (V1 m ρ) c).arrAt_in 0 rfl _).trans (A_eq0 (V1 m ρ) c 0))
/-- Input window 1's array leaves the region as it entered. -/
theorem W2_in1 (c : Dev nD) :
    W2 m ρ c (Proc.devRef .tc (Pipeline.arrRef spec0 1)) = W1 m ρ c (Proc.devRef .tc (Pipeline.arrRef spec0 1)) :=
  (W2_arr m ρ c 1).trans (((dat0 (V1 m ρ) c).arrAt_in 1 rfl _).trans (A_eq0 (V1 m ρ) c 1))
/-- Input window 2's array leaves the region as it entered. -/
theorem W2_in2 (c : Dev nD) :
    W2 m ρ c (Proc.devRef .tc (Pipeline.arrRef spec0 2)) = W1 m ρ c (Proc.devRef .tc (Pipeline.arrRef spec0 2)) :=
  (W2_arr m ρ c 2).trans (((dat0 (V1 m ρ) c).arrAt_in 2 rfl _).trans (A_eq0 (V1 m ρ) c 2))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, an output its blocks' write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Input window 0's array leaves the region as it entered. -/
theorem W4_in0 (c : Dev nD) :
    W4 m ρ c (Proc.devRef .tc (Pipeline.arrRef spec1 0)) = W3 m ρ c (Proc.devRef .tc (Pipeline.arrRef spec1 0)) :=
  (W4_arr m ρ c 0).trans (((dat1 (V3 m ρ) c).arrAt_in 0 rfl _).trans (A_eq1 (V3 m ρ) c 0))
/-- Input window 1's array leaves the region as it entered. -/
theorem W4_in1 (c : Dev nD) :
    W4 m ρ c (Proc.devRef .tc (Pipeline.arrRef spec1 1)) = W3 m ρ c (Proc.devRef .tc (Pipeline.arrRef spec1 1)) :=
  (W4_arr m ρ c 1).trans (((dat1 (V3 m ρ) c).arrAt_in 1 rfl _).trans (A_eq1 (V3 m ρ) c 1))
/-- Input window 2's array leaves the region as it entered. -/
theorem W4_in2 (c : Dev nD) :
    W4 m ρ c (Proc.devRef .tc (Pipeline.arrRef spec1 2)) = W3 m ρ c (Proc.devRef .tc (Pipeline.arrRef spec1 2)) :=
  (W4_arr m ρ c 2).trans (((dat1 (V3 m ρ) c).arrAt_in 2 rfl _).trans (A_eq1 (V3 m ρ) c 2))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (an input as entered, an output its blocks' write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- Input window 0's array leaves the region as it entered. -/
theorem W6_in0 (c : Dev nD) :
    W6 m ρ c (Proc.devRef .tc (Pipeline.arrRef spec2 0)) = W5 m ρ c (Proc.devRef .tc (Pipeline.arrRef spec2 0)) :=
  (W6_arr m ρ c 0).trans (((dat2 (V5 m ρ) c).arrAt_in 0 rfl _).trans (A_eq2 (V5 m ρ) c 0))
/-- Input window 1's array leaves the region as it entered. -/
theorem W6_in1 (c : Dev nD) :
    W6 m ρ c (Proc.devRef .tc (Pipeline.arrRef spec2 1)) = W5 m ρ c (Proc.devRef .tc (Pipeline.arrRef spec2 1)) :=
  (W6_arr m ρ c 1).trans (((dat2 (V5 m ρ) c).arrAt_in 1 rfl _).trans (A_eq2 (V5 m ρ) c 1))
/-- Input window 2's array leaves the region as it entered. -/
theorem W6_in2 (c : Dev nD) :
    W6 m ρ c (Proc.devRef .tc (Pipeline.arrRef spec2 2)) = W5 m ρ c (Proc.devRef .tc (Pipeline.arrRef spec2 2)) :=
  (W6_arr m ρ c 2).trans (((dat2 (V5 m ρ) c).arrAt_in 2 rfl _).trans (A_eq2 (V5 m ρ) c 2))
/-- Input window 3's array leaves the region as it entered. -/
theorem W6_in3 (c : Dev nD) :
    W6 m ρ c (Proc.devRef .tc (Pipeline.arrRef spec2 3)) = W5 m ρ c (Proc.devRef .tc (Pipeline.arrRef spec2 3)) :=
  (W6_arr m ρ c 3).trans (((dat2 (V5 m ρ) c).arrAt_in 3 rfl _).trans (A_eq2 (V5 m ρ) c 3))
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch: the final contents. -/
abbrev W7 : Dev nD → Valuation τ sig (Elt F) := fun c => StableHlo.after hostOps3 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_in0 m ρ c
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_in0 m ρ c
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_in1 m ρ c
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_in2 m ρ c
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the final contents, the generator register at
    some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the class
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last fold's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps3 (W6 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c)⟩) (run m ρ)

end Cert.KernelIdeal.Frame

end
-- ==== Proof.Spec.lean ====
/-
  The one formula the two projection kernels and the reference's dense layers share: entry (p, q) of x·w + b over the
  extended reals is the sum over the contracted axis of the products of row p of x with column q of w, plus entry q of
  the bias.  Generic in the three extents, so that a block of rows and the whole array are read by the same function.
-/
import Idealize.ShloMosaic.PureOps.Ideal
import Idealize.ShloMosaic.Lib.ValueIdx

noncomputable section

namespace Cert.Bridge

open Idealize.ShloMosaic Idealize.ShloMosaic.ValueIdx

/-- Entry `(p, q)` of `x · w + b`: `Σ_k x(p, k) · w(k, q) + b(q)`. -/
def denseAt {N K D : ℕ} (x : (⟨2, ![N, K]⟩ : Shape).Idx → EReal) (w : (⟨2, ![K, D]⟩ : Shape).Idx → EReal)
    (b : (⟨1, ![D]⟩ : Shape).Idx → EReal) (p : Fin N) (q : Fin D) : EReal :=
  (∑ k : Fin K, x (ix2 p k) * w (ix2 k q)) + b (ix1 q)

/-- The entry depends only on row `p` of `x`, column `q` of `w` and entry `q` of `b`. -/
theorem denseAt_congr {N N' K D D' : ℕ} {x : (⟨2, ![N, K]⟩ : Shape).Idx → EReal} {x' : (⟨2, ![N', K]⟩ : Shape).Idx → EReal}
    {w : (⟨2, ![K, D]⟩ : Shape).Idx → EReal} {w' : (⟨2, ![K, D']⟩ : Shape).Idx → EReal}
    {b : (⟨1, ![D]⟩ : Shape).Idx → EReal} {b' : (⟨1, ![D']⟩ : Shape).Idx → EReal}
    {p : Fin N} {p' : Fin N'} {q : Fin D} {q' : Fin D'}
    (hx : ∀ k : Fin K, x (ix2 p k) = x' (ix2 p' k)) (hw : ∀ k : Fin K, w (ix2 k q) = w' (ix2 k q'))
    (hb : b (ix1 q) = b' (ix1 q')) : denseAt x w b p q = denseAt x' w' b' p' q' := by
  unfold denseAt
  rw [hb]
  exact congrArg (· + b' (ix1 q')) (Finset.sum_congr rfl fun k _ => by rw [hx k, hw k])

end Cert.Bridge

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«113294_j27779848470630_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.DenseBlock.lean ====
/-
  The two projection blocks read at an entry.

  Each block computes x·w + b for a block of rows: the operands are narrowed to a shorter format (over the extended
  reals a change of format is the identity), multiplied into the zero accumulator (entry (p, q) of the product is
  Σ_k x(p, k)·w(k, q)), and the bias vector, viewed as a one-row array and repeated down the rows, is added (entry
  (p, q) of the repeated array is b(q)).  So entry (p, q) of the block's result is the shared dense formula.
-/
import proofs.«113294_j27779848470630_2_alg».proof.Proof.Gen.KernelIdeal.Skeleton
import proofs.«113294_j27779848470630_2_alg».proof.Proof.Spec
import proofs.«113294_j27779848470630_2_alg».proof.Proof.LibPlainDotFormats
import proofs.«113294_j27779848470630_2_alg».proof.Proof.LibRowLayout
import Idealize.ShloMosaic.Lib.Pipeline.Value

noncomputable section

namespace Cert.Bridge

open Idealize.ShloMosaic Idealize.ShloMosaic.ValueIdx Cert.KernelIdeal Cert.KernelIdeal.Gen

/-- The node block's dimension numbers are those of a plain product. -/
theorem plain_dot_nodes : Cert.LibPlainDot.Plain dot_S5000x64_S64x192_S5000x192_1_0_0_1_n_n :=
  ⟨rfl, rfl, rfl, rfl, rfl, rfl⟩

/-- The edge block's dimension numbers are those of a plain product. -/
theorem plain_dot_edges : Cert.LibPlainDot.Plain dot_S16000x64_S64x64_S16000x64_1_0_0_1_n_n :=
  ⟨rfl, rfl, rfl, rfl, rfl, rfl⟩

/-- Entry `(p, q)` of the node projection block is `Σ_k x(p, k)·w(k, q) + b(q)`. -/
theorem k0_pay1_apply (x : Vec Ideal S5000x64 .f32) (w : Vec Ideal S64x192 .f32) (b : Vec Ideal S192 .f32)
    (p : Fin 5000) (q : Fin 192) : k0_pay1 (F := Ideal) x w b (ix2 p q) = denseAt x w b p q := by
  unfold k0_pay1 denseAt
  refine (addf_apply _ _ _).trans ?_
  refine congrArg₂ (· + ·) ?_ ?_
  · refine (plain_dot_nodes.matmul_zero_apply_formats none _ _ p q).trans ?_
    refine Finset.sum_congr rfl fun k _ => ?_
    rw [shapeCast_self]
    rfl
  · refine (Cert.LibRowLayout.broadcastTo_1b_ab_apply _ broadcasts_S1x192_S5000x192 p q).trans ?_
    refine (Cert.LibRowLayout.shapeCast_b_1b_apply _ shapeCasts_S192_S1x192 0 q).trans ?_
    rw [shapeCast_self]

/-- Entry `(p, q)` of the edge projection block is `Σ_k x(p, k)·w(k, q) + b(q)`. -/
theorem k1_pay1_apply (x : Vec Ideal S16000x64 .f32) (w : Vec Ideal S64x64 .f32) (b : Vec Ideal S64 .f32)
    (p : Fin 16000) (q : Fin 64) : k1_pay1 (F := Ideal) x w b (ix2 p q) = denseAt x w b p q := by
  unfold k1_pay1 denseAt
  refine (addf_apply _ _ _).trans ?_
  refine congrArg₂ (· + ·) ?_ ?_
  · refine (plain_dot_edges.matmul_zero_apply_formats none _ _ p q).trans ?_
    rfl
  · refine (Cert.LibRowLayout.broadcastTo_1b_ab_apply _ broadcasts_S1x64_S16000x64 p q).trans ?_
    exact Cert.LibRowLayout.shapeCast_b_1b_apply _ shapeCasts_S64_S1x64 0 q

end Cert.Bridge

end
-- ==== Proof.KiValue0.lean ====
/-
  What the node projection's region leaves in its output array, as one function of the three
  arrays it reads: entry (r, q) is the dot product of row r of the left operand with column q of the weights, plus
  entry q of the bias.

  Grid point t handles rows 5000·t … 5000·t + 4999: its left block is those rows, its weight and bias blocks are the
  whole arrays, and the block it writes back is those rows of the output.  So what it writes back is that block of the
  one function, every row lies in the block of the point numbered (row / 5000), and the array after the last
  write-back is the function.
-/
import proofs.«113294_j27779848470630_2_alg».proof.Proof.KiRegion0
import proofs.«113294_j27779848470630_2_alg».proof.Proof.DenseBlock
import proofs.«113294_j27779848470630_2_alg».proof.Proof.Spec
import Idealize.ShloMosaic.Lib.Pipeline.Value
import Idealize.ShloMosaic.Lib.ValueIdx

set_option maxRecDepth 16384

noncomputable section

namespace Cert.KernelIdeal.Frame

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output array as one function of the left operand, the weights and the bias. -/
def G0 (x : S50000x64.Idx → EReal) (w : S64x192.Idx → EReal) (b : S192.Idx → EReal) : S50000x192.Idx → EReal :=
  fun i => denseAt x w b (⟨(i 0).val, idx2_lt0 i⟩ : Fin 50000) (⟨(i 1).val, idx2_lt1 i⟩ : Fin 192)

theorem G0_apply (x : S50000x64.Idx → EReal) (w : S64x192.Idx → EReal) (b : S192.Idx → EReal) (p : Fin 50000) (q : Fin 192) :
    G0 x w b (ix2 p q) = denseAt x w b p q := rfl

theorem hz2_0 : (![0, 0] : Fin 2 → Nat) = fun _ => 0 := funext fun a => by fin_cases a <;> rfl
theorem hz1_0 : (![0] : Fin 1 → Nat) = fun _ => 0 := funext fun a => by fin_cases a <;> rfl

/-- The printed index maps, decided over the grid: the left operand's block moves with the output's along the rows and
    sits at column block 0; the weights' and the bias's block is always block 0; the output's row block is the point's
    number and its column block 0. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) = t.val :=
  (by decide +kernel : ∀ t : Fin grid0.N, _)

/-- What point `t` writes back is block `t` of `G0` of the arrays as the region finds them. -/
theorem flushed0_eq (c : Dev nD) (t : Fin cfg0.N) :
    (dat0 V c).flushed 3 t = ((cfg0.win 3).blk t).view.read (Elt Ideal) (G0 (V c main_arg0) (V c main_v0) (V c main_v1)) := by
  show (cfg0.win 3).cut (grid0.coords t) ((dat0 V c).after 3 t) = _
  rw [after0_3]
  unfold out0_3
  rw [View.canon_unit_zero hz2_0]
  simp only [View.ld_unit_zero (S := S5000x64) hz2_0, View.ld_unit_zero (S := S64x192) hz2_0, View.ld_unit_zero (S := S192) hz1_0]
  obtain ⟨e0, e1, e2, e3, e4, e5, e6⟩ := idx_facts0 t
  funext j
  obtain ⟨p, q, rfl⟩ : ∃ (p : Fin 5000) (q : Fin 192), j = ix2 p q := ⟨j 0, j 1, eq_ix2 j⟩
  have hp : p.val < 5000 := p.isLt
  have hq : q.val < 192 := q.isLt
  have hrow : win0_3.index t (0 : Fin 2) * 5000 + 1 * p.val < 50000 := by
    have ht : t.val < grid0.N := t.isLt
    rw [N_0] at ht
    rw [e6]; omega
  have hemb : ((cfg0.win 3).blk t).view.emb (ix2 p q) = ix2 (⟨win0_3.index t (0 : Fin 2) * 5000 + 1 * p.val, hrow⟩ : Fin 50000) q := by
    funext a; apply Fin.ext
    match a with
    | ⟨0, _⟩ => rfl
    | ⟨1, _⟩ => show win0_3.index t (1 : Fin 2) * 192 + 1 * q.val = q.val; omega
  show k0_pay1 (F := Ideal) (iblk0 V c 0 t) (iblk0 V c 1 t) (iblk0 V c 2 t) (ix2 p q) = G0 (V c main_arg0) (V c main_v0) (V c main_v1) (((cfg0.win 3).blk t).view.emb (ix2 p q))
  rw [hemb, G0_apply]
  refine (k0_pay1_apply (iblk0 V c 0 t) (iblk0 V c 1 t) (iblk0 V c 2 t) p q).trans ?_
  refine denseAt_congr (fun k => ?_) (fun k => ?_) ?_
  · show V c main_arg0 (((cfg0.win 0).blk t).view.emb (ix2 p k)) = V c main_arg0 (ix2 _ k)
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  · show V c main_v0 (((cfg0.win 1).blk t).view.emb (ix2 k q)) = V c main_v0 (ix2 k q)
    refine congrArg (V c main_v0) (funext fun a => Fin.ext ?_)
    match a with
    | ⟨0, _⟩ => show win0_1.index t (0 : Fin 2) * 64 + 1 * k.val = k.val; omega
    | ⟨1, _⟩ => show win0_1.index t (1 : Fin 2) * 192 + 1 * q.val = q.val; omega
  · show V c main_v1 (((cfg0.win 2).blk t).view.emb (ix1 q)) = V c main_v1 (ix1 q)
    refine congrArg (V c main_v1) (funext fun a => Fin.ext ?_)
    match a with
    | ⟨0, _⟩ => show win0_2.index t (0 : Fin 1) * 192 + 1 * q.val = q.val; omega

/-- An index of the array is in point `t`'s block iff each coordinate is in the block's range on its axis. -/
theorem mem_blk0 (t : Fin cfg0.N) (i : S50000x192.Idx) :
    i ∈ ((cfg0.win 3).blk t).view.set ↔ ∀ a : Fin 2, win0_3.index t a * S5000x192.size a ≤ (i a).val ∧ (i a).val < win0_3.index t a * S5000x192.size a + S5000x192.size a := by
  show i ∈ ((View.whole main_v2).slice (win0_3.rect t)).set ↔ _
  rw [View.set_slice_whole, Rect.mem_set_unit]
  exact Iff.rfl

/-- Every index of the output array is in the block of the point numbered (row / 5000). -/
theorem cover0 (i : S50000x192.Idx) : ∃ t : Fin cfg0.N, (cfg0.win 3).flush t = true ∧ i ∈ ((cfg0.win 3).blk t).view.set := by
  have hi0 : (i 0).val < 50000 := (i 0).isLt
  have hi1 : (i 1).val < 192 := (i 1).isLt
  have hN : grid0.N = 10 := N_0
  have ht : (i 0).val / 5000 < grid0.N := by rw [hN]; omega
  obtain ⟨e0, e1, e2, e3, e4, e5, e6⟩ := idx_facts0 ⟨(i 0).val / 5000, ht⟩
  have e6' : win0_3.index ⟨(i 0).val / 5000, ht⟩ (0 : Fin 2) = (i 0).val / 5000 := e6
  refine ⟨⟨(i 0).val / 5000, ht⟩, flush0_3 _, ?_⟩
  rw [mem_blk0]
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; omega
  | ⟨1, _⟩ => show win0_3.index ⟨(i 0).val / 5000, ht⟩ (1 : Fin 2) * 192 ≤ (i 1).val ∧ (i 1).val < win0_3.index ⟨(i 0).val / 5000, ht⟩ (1 : Fin 2) * 192 + 192; omega

/-- The output array after the region is `G0` of the arrays as the region finds them. -/
theorem final0 (c : Dev nD) : (dat0 V c).arrAt 3 cfg0.N = G0 (V c main_arg0) (V c main_v0) (V c main_v1) :=
  (dat0 V c).arrAt_eq_of_cover 3 _ (fun t _ => flushed0_eq V c t) cover0

end Cert.KernelIdeal.Frame

end
-- ==== Proof.KiValue1.lean ====
/-
  What the edge projection's region leaves in its output array, as one function of the three
  arrays it reads: entry (r, q) is the dot product of row r of the left operand with column q of the weights, plus
  entry q of the bias.

  Grid point t handles rows 16000·t … 16000·t + 15999: its left block is those rows, its weight and bias blocks are the
  whole arrays, and the block it writes back is those rows of the output.  So what it writes back is that block of the
  one function, every row lies in the block of the point numbered (row / 16000), and the array after the last
  write-back is the function.
-/
import proofs.«113294_j27779848470630_2_alg».proof.Proof.KiRegion1
import proofs.«113294_j27779848470630_2_alg».proof.Proof.DenseBlock
import proofs.«113294_j27779848470630_2_alg».proof.Proof.Spec
import Idealize.ShloMosaic.Lib.Pipeline.Value
import Idealize.ShloMosaic.Lib.ValueIdx

set_option maxRecDepth 16384

noncomputable section

namespace Cert.KernelIdeal.Frame

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output array as one function of the left operand, the weights and the bias. -/
def G1 (x : S1600000x64.Idx → EReal) (w : S64x64.Idx → EReal) (b : S64.Idx → EReal) : S1600000x64.Idx → EReal :=
  fun i => denseAt x w b (⟨(i 0).val, idx2_lt0 i⟩ : Fin 1600000) (⟨(i 1).val, idx2_lt1 i⟩ : Fin 64)

theorem G1_apply (x : S1600000x64.Idx → EReal) (w : S64x64.Idx → EReal) (b : S64.Idx → EReal) (p : Fin 1600000) (q : Fin 64) :
    G1 x w b (ix2 p q) = denseAt x w b p q := rfl

theorem hz2_1 : (![0, 0] : Fin 2 → Nat) = fun _ => 0 := funext fun a => by fin_cases a <;> rfl
theorem hz1_1 : (![0] : Fin 1 → Nat) = fun _ => 0 := funext fun a => by fin_cases a <;> rfl

/-- The printed index maps, decided over the grid: the left operand's block moves with the output's along the rows and
    sits at column block 0; the weights' and the bias's block is always block 0; the output's row block is the point's
    number and its column block 0. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0 ∧ win1_3.index t (0 : Fin 2) = t.val :=
  (by decide +kernel : ∀ t : Fin grid1.N, _)

/-- What point `t` writes back is block `t` of `G1` of the arrays as the region finds them. -/
theorem flushed1_eq (c : Dev nD) (t : Fin cfg1.N) :
    (dat1 V c).flushed 3 t = ((cfg1.win 3).blk t).view.read (Elt Ideal) (G1 (V c main_arg1) (V c main_arg7) (V c main_arg8)) := by
  show (cfg1.win 3).cut (grid1.coords t) ((dat1 V c).after 3 t) = _
  rw [after1_3]
  unfold out1_3
  rw [View.canon_unit_zero hz2_1]
  simp only [View.ld_unit_zero (S := S16000x64) hz2_1, View.ld_unit_zero (S := S64x64) hz2_1, View.ld_unit_zero (S := S64) hz1_1]
  obtain ⟨e0, e1, e2, e3, e4, e5, e6⟩ := idx_facts1 t
  funext j
  obtain ⟨p, q, rfl⟩ : ∃ (p : Fin 16000) (q : Fin 64), j = ix2 p q := ⟨j 0, j 1, eq_ix2 j⟩
  have hp : p.val < 16000 := p.isLt
  have hq : q.val < 64 := q.isLt
  have hrow : win1_3.index t (0 : Fin 2) * 16000 + 1 * p.val < 1600000 := by
    have ht : t.val < grid1.N := t.isLt
    rw [N_1] at ht
    rw [e6]; omega
  have hemb : ((cfg1.win 3).blk t).view.emb (ix2 p q) = ix2 (⟨win1_3.index t (0 : Fin 2) * 16000 + 1 * p.val, hrow⟩ : Fin 1600000) q := by
    funext a; apply Fin.ext
    match a with
    | ⟨0, _⟩ => rfl
    | ⟨1, _⟩ => show win1_3.index t (1 : Fin 2) * 64 + 1 * q.val = q.val; omega
  show k1_pay1 (F := Ideal) (iblk1 V c 0 t) (iblk1 V c 1 t) (iblk1 V c 2 t) (ix2 p q) = G1 (V c main_arg1) (V c main_arg7) (V c main_arg8) (((cfg1.win 3).blk t).view.emb (ix2 p q))
  rw [hemb, G1_apply]
  refine (k1_pay1_apply (iblk1 V c 0 t) (iblk1 V c 1 t) (iblk1 V c 2 t) p q).trans ?_
  refine denseAt_congr (fun k => ?_) (fun k => ?_) ?_
  · show V c main_arg1 (((cfg1.win 0).blk t).view.emb (ix2 p k)) = V c main_arg1 (ix2 _ k)
    refine congrArg (V c main_arg1) (funext fun a => Fin.ext ?_)
    match a with
    | ⟨0, _⟩ => show win1_0.index t (0 : Fin 2) * 16000 + 1 * p.val = win1_3.index t (0 : Fin 2) * 16000 + 1 * p.val; omega
    | ⟨1, _⟩ => show win1_0.index t (1 : Fin 2) * 64 + 1 * k.val = k.val; omega
  · show V c main_arg7 (((cfg1.win 1).blk t).view.emb (ix2 k q)) = V c main_arg7 (ix2 k q)
    refine congrArg (V c main_arg7) (funext fun a => Fin.ext ?_)
    match a with
    | ⟨0, _⟩ => show win1_1.index t (0 : Fin 2) * 64 + 1 * k.val = k.val; omega
    | ⟨1, _⟩ => show win1_1.index t (1 : Fin 2) * 64 + 1 * q.val = q.val; omega
  · show V c main_arg8 (((cfg1.win 2).blk t).view.emb (ix1 q)) = V c main_arg8 (ix1 q)
    refine congrArg (V c main_arg8) (funext fun a => Fin.ext ?_)
    match a with
    | ⟨0, _⟩ => show win1_2.index t (0 : Fin 1) * 64 + 1 * q.val = q.val; omega

/-- An index of the array is in point `t`'s block iff each coordinate is in the block's range on its axis. -/
theorem mem_blk1 (t : Fin cfg1.N) (i : S1600000x64.Idx) :
    i ∈ ((cfg1.win 3).blk t).view.set ↔ ∀ a : Fin 2, win1_3.index t a * S16000x64.size a ≤ (i a).val ∧ (i a).val < win1_3.index t a * S16000x64.size a + S16000x64.size a := by
  show i ∈ ((View.whole main_v9).slice (win1_3.rect t)).set ↔ _
  rw [View.set_slice_whole, Rect.mem_set_unit]
  exact Iff.rfl

/-- Every index of the output array is in the block of the point numbered (row / 16000). -/
theorem cover1 (i : S1600000x64.Idx) : ∃ t : Fin cfg1.N, (cfg1.win 3).flush t = true ∧ i ∈ ((cfg1.win 3).blk t).view.set := by
  have hi0 : (i 0).val < 1600000 := (i 0).isLt
  have hi1 : (i 1).val < 64 := (i 1).isLt
  have hN : grid1.N = 100 := N_1
  have ht : (i 0).val / 16000 < grid1.N := by rw [hN]; omega
  obtain ⟨e0, e1, e2, e3, e4, e5, e6⟩ := idx_facts1 ⟨(i 0).val / 16000, ht⟩
  have e6' : win1_3.index ⟨(i 0).val / 16000, ht⟩ (0 : Fin 2) = (i 0).val / 16000 := e6
  refine ⟨⟨(i 0).val / 16000, ht⟩, flush1_3 _, ?_⟩
  rw [mem_blk1]
  intro a
  match a with
  | ⟨0, _⟩ => show win1_3.index ⟨(i 0).val / 16000, ht⟩ (0 : Fin 2) * 16000 ≤ (i 0).val ∧ (i 0).val < win1_3.index ⟨(i 0).val / 16000, ht⟩ (0 : Fin 2) * 16000 + 16000; omega
  | ⟨1, _⟩ => show win1_3.index ⟨(i 0).val / 16000, ht⟩ (1 : Fin 2) * 64 ≤ (i 1).val ∧ (i 1).val < win1_3.index ⟨(i 0).val / 16000, ht⟩ (1 : Fin 2) * 64 + 64; omega

/-- The output array after the region is `G1` of the arrays as the region finds them. -/
theorem final1 (c : Dev nD) : (dat1 V c).arrAt 3 cfg1.N = G1 (V c main_arg1) (V c main_arg7) (V c main_arg8) :=
  (dat1 V c).arrAt_eq_of_cover 3 _ (fun t _ => flushed1_eq V c t) cover1

end Cert.KernelIdeal.Frame

end
-- ==== Proof.ScoreRow.lean ====
/-
  The score of one (edge, head) row of a graph-attention layer, over the extended reals: the sixteen products
  `k d · q d · ¼ · e d` of the row's key, query and edge-feature entries are summed from the zero word, the sum is
  clamped to `[-5, 5]` (first from below, then from above) and exponentiated. The four float literals are kept as
  the words the two programs print (`¼ = 0x3E800000`, `-5 = 0xC0A00000`, `5 = 0x40A00000`, `0 = 0x00000000`): both
  programs read the same words, so what they denote is never needed. The product is grouped as both programs group
  it, `((k d * q d) * ¼) * e d`.
-/
import Idealize.ShloMosaic.PureOps.Ideal

noncomputable section

open scoped BigOperators

namespace Cert.Bridge

open Idealize.ShloMosaic

/-- `exp (min 5 (max (-5) (0 + ∑ d, k d * q d * ¼ * e d)))` on the extended reals, the literals as their words. -/
def scoreRow (k q e : Fin 16 → EReal) : EReal :=
  Ideal.exp (min (Ideal.ofBits .f32 0x40A00000#32) (max (Ideal.ofBits .f32 0xC0A00000#32)
    (Ideal.ofBits .f32 0x00000000#32 + ∑ d : Fin 16, k d * q d * Ideal.ofBits .f32 0x3E800000#32 * e d)))

end Cert.Bridge

end
-- ==== Proof.LibKeepdims3.lean ====
/-
  Layout facts a reduction over the LAST axis of a three-axis array meets when its result is kept as a trailing
  unit axis and spread back, each read at an entry given by its coordinates: the sum along the last axis of an
  `[a, b, c]` array; an `[a, b]` array viewed as `[a, b, 1]` or as `[a, 1, b]`, and an `[a, 1]` array viewed as `[a, 1, 1]` or as `[a]`; and the
  three spreadings `[a, 1, 1] → [a, b, 1]`, `[a, b, 1] → [a, b, c]`, `[a, 1, c] → [a, b, c]`. They hold for any
  extents, and all but the sum for entries of any type.
-/
import Idealize.ShloMosaic.Lib.Pipeline.Value
import Idealize.ShloMosaic.Lib.ValueIdx
import Idealize.ShloMosaic.PureOps.Ideal.Laws

noncomputable section

open scoped BigOperators

namespace Cert.LibKeepdims3

open Idealize.ShloMosaic Idealize.ShloMosaic.ValueIdx

variable {α : Type}

/-- An `[a, b]` array cast to `[a, b, 1]` reads, at `(i, j, u)`, the operand at `(i, j)`: the same row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, 1]` array cast to `[a, 1, 1]` reads, at `(i, u, v)`, the operand at `(i, u)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i u) :=
  shapeCast_apply x h _ _ (by
    have hv : v.val = 0 := by omega
    rw [Shape.rowMajor_val_two, Shape.rowMajor_val_three]
    show i.val * 1 + u.val = (i.val * 1 + u.val) * 1 + v.val
    omega)

/-- An `[a, 1]` array cast to `[a]` reads, at `i`, the operand's one entry of row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, b]` array cast to `[a, 1, b]` reads, at `(i, u, j)`, the operand at `(i, j)`: the same row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, 1]` array spread to `[a, b, 1]` reads, at `(i, j, u)`, the operand's one entry of row `i`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, b, 1]` array spread to `[a, b, c]` reads, at `(i, j, k)`, the operand's one entry at `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array spread to `[a, b, c]` reads, at `(i, j, k)`, the operand at `(i, 0, k)`: the same for every `j`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Over the extended reals, the sum of an `[a, b, c]` array along its last axis, started from the zero word, is at
    `(i, j)` the sum over `k` of the entries `(i, j, k)`. -/
theorem multiReduction_add_last_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext ax
  apply Fin.ext
  match ax with
  | ⟨0, _⟩ => rfl
  | ⟨1, _⟩ => rfl
  | ⟨2, _⟩ => rfl

/-- The same sum with the accumulator's side condition typed as a printed program's evidence for it really is (the
    zero word equal to itself), so that the statement is found by rewriting inside a printed value. -/
theorem multiReduction_add_last_printed {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_last_apply src h hφ hacc i j

/-- The sum of an `[a, b]` array along its second axis, at row `i`, with the side condition typed as printed. -/
theorem multiReduction_add_rows_printed {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims3

end
-- ==== Proof.ScoreBlock.lean ====
/-
  The per-edge score / message block at the extended reals, entry by entry. Of a block of 800 edges with 4 heads of
  width 16, the score at (edge r, head h) is `scoreRow` of that row's key, query and edge-feature entries, and the
  message at (r, h, d) is the value entry there times that score.
-/
import proofs.«113294_j27779848470630_2_alg».proof.Proof.Gen.KernelIdeal.Skeleton
import proofs.«113294_j27779848470630_2_alg».proof.Proof.ScoreRow
import proofs.«113294_j27779848470630_2_alg».proof.Proof.LibKeepdims3
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Cert.KernelIdeal Cert.KernelIdeal.Gen

/-- The block's score at (r, h): the three identity casts drop, the lane sum over the last axis reads as the sum over
    `d`, its keepdims cast reads the same entry, and zero (the sum's starting word) plus the sum is the sum. -/
theorem k2_pay1_apply (K Q Ee : Vec Ideal S800x4x16 .f32) (r : Fin 800) (h : Fin 4) :
    k2_pay1 (F := Ideal) K Q Ee (ix3 r h (0 : Fin 1))
      = scoreRow (fun d => K (ix3 r h d)) (fun d => Q (ix3 r h d)) (fun d => Ee (ix3 r h d)) := by
  unfold k2_pay1 scoreRow
  simp only [shapeCast_self]
  refine congrArg Ideal.exp (congrArg (min _) (congrArg (max _) ?_))
  refine (LibKeepdims3.shapeCast_ab_ab1_apply _ _ r h (0 : Fin 1)).trans ?_
  refine (LibKeepdims3.multiReduction_add_last_printed _ _ _ _ r h).trans ?_
  rw [Ideal.ofBits_zero_f32, zero_add]
  rfl

/-- The block's message at (r, h, d): the value entry times the row's score, which the spreading along the last
    axis reads at (r, h, 0). -/
theorem k2_pay2_apply (K Q V Ee : Vec Ideal S800x4x16 .f32) (r : Fin 800) (h : Fin 4) (d : Fin 16) :
    k2_pay2 (F := Ideal) K Q V Ee (ix3 r h d)
      = V (ix3 r h d) * scoreRow (fun d => K (ix3 r h d)) (fun d => Q (ix3 r h d)) (fun d => Ee (ix3 r h d)) := by
  unfold k2_pay2
  simp only [shapeCast_self]
  refine (mulf_apply _ _ _).trans ?_
  refine congrArg (V (ix3 r h d) * ·) ?_
  refine (LibKeepdims3.broadcastTo_ab1_abc_apply _ _ r h d).trans ?_
  exact k2_pay1_apply K Q Ee r h

end Cert.Bridge

end
-- ==== Proof.KiValue2.lean ====
/-
  What the score / message region leaves in its two output arrays, each as one function of the four gathered arrays:
  the score of edge e and head h is the clamped exponentiated sum over the sixteen lanes of key · query · ¼ · edge
  feature at (e, h), and the message at (e, h, d) is the value entry there times that score.

  Grid point t handles edges 800·t … 800·t + 799 of all six arrays: what it writes back to each output is that block of
  the one function, every edge lies in the block of the point numbered (edge / 800), and each array after the last
  write-back is its function.
-/
import proofs.«113294_j27779848470630_2_alg».proof.Proof.KiRegion2
import proofs.«113294_j27779848470630_2_alg».proof.Proof.ScoreBlock
import Idealize.ShloMosaic.Lib.Pipeline.Value
import Idealize.ShloMosaic.Lib.ValueIdx

set_option maxRecDepth 16384

noncomputable section

namespace Cert.KernelIdeal.Frame

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The score of edge `e`, head `h`, from the whole gathered arrays. -/
def scoreAt (K Q Ee : S1600000x4x16.Idx → EReal) (e : Fin 1600000) (h : Fin 4) : EReal :=
  scoreRow (fun d => K (ix3 e h d)) (fun d => Q (ix3 e h d)) (fun d => Ee (ix3 e h d))

/-- The score array as one function of the keys, queries and edge features. -/
def Gs (K Q Ee : S1600000x4x16.Idx → EReal) : S1600000x4x1.Idx → EReal :=
  fun i => scoreAt K Q Ee (⟨(i 0).val, (i 0).isLt⟩ : Fin 1600000) (⟨(i 1).val, (i 1).isLt⟩ : Fin 4)

/-- The message array as one function of the keys, queries, values and edge features. -/
def Gm (K Q Vv Ee : S1600000x4x16.Idx → EReal) : S1600000x4x16.Idx → EReal :=
  fun i => Vv (ix3 (⟨(i 0).val, (i 0).isLt⟩ : Fin 1600000) (⟨(i 1).val, (i 1).isLt⟩ : Fin 4) (⟨(i 2).val, (i 2).isLt⟩ : Fin 16))
    * scoreAt K Q Ee (⟨(i 0).val, (i 0).isLt⟩ : Fin 1600000) (⟨(i 1).val, (i 1).isLt⟩ : Fin 4)

theorem Gs_apply (K Q Ee : S1600000x4x16.Idx → EReal) (e : Fin 1600000) (h : Fin 4) (z : Fin 1) :
    Gs K Q Ee (ix3 e h z) = scoreAt K Q Ee e h := rfl
theorem Gm_apply (K Q Vv Ee : S1600000x4x16.Idx → EReal) (e : Fin 1600000) (h : Fin 4) (d : Fin 16) :
    Gm K Q Vv Ee (ix3 e h d) = Vv (ix3 e h d) * scoreAt K Q Ee e h := rfl

theorem hz3_2 : (![0, 0, 0] : Fin 3 → Nat) = fun _ => 0 := funext fun a => by fin_cases a <;> rfl

/-- The printed index maps, decided over the grid: every window's edge block is the point's number, and its blocks along
    the two other axes are block 0. -/
theorem idx_facts2 : ∀ t : Fin cfg2.N,
    (win2_0.index t (0 : Fin 3) = t.val ∧ win2_0.index t (1 : Fin 3) = 0 ∧ win2_0.index t (2 : Fin 3) = 0)
    ∧ (win2_1.index t (0 : Fin 3) = t.val ∧ win2_1.index t (1 : Fin 3) = 0 ∧ win2_1.index t (2 : Fin 3) = 0)
    ∧ (win2_2.index t (0 : Fin 3) = t.val ∧ win2_2.index t (1 : Fin 3) = 0 ∧ win2_2.index t (2 : Fin 3) = 0)
    ∧ (win2_3.index t (0 : Fin 3) = t.val ∧ win2_3.index t (1 : Fin 3) = 0 ∧ win2_3.index t (2 : Fin 3) = 0)
    ∧ (win2_4.index t (0 : Fin 3) = t.val ∧ win2_4.index t (1 : Fin 3) = 0 ∧ win2_4.index t (2 : Fin 3) = 0)
    ∧ (win2_5.index t (0 : Fin 3) = t.val ∧ win2_5.index t (1 : Fin 3) = 0 ∧ win2_5.index t (2 : Fin 3) = 0) :=
  (by decide +kernel : ∀ t : Fin grid2.N, _)

/-- An input block's entry (r, h, d) at point `t` is its array's entry (800·t + r, h, d). -/
theorem iblk2_apply (c : Dev nD) (t : Fin cfg2.N) (r : Fin 800) (h : Fin 4) (d : Fin 16) (e : Fin 1600000) (he : e.val = t.val * 800 + r.val) :
    (iblk2 V c 0 t (ix3 r h d) = V c main_v21 (ix3 e h d)) ∧ (iblk2 V c 1 t (ix3 r h d) = V c main_v28 (ix3 e h d))
    ∧ (iblk2 V c 2 t (ix3 r h d) = V c main_v35 (ix3 e h d)) ∧ (iblk2 V c 3 t (ix3 r h d) = V c main_v10 (ix3 e h d)) := by
  obtain ⟨⟨a0, a1, a2⟩, ⟨b0, b1, b2⟩, ⟨c0, c1, c2⟩, ⟨d0, d1, d2⟩, -, -⟩ := idx_facts2 t
  have hr : r.val < 800 := r.isLt
  refine ⟨?_, ?_, ?_, ?_⟩
  · show V c main_v21 (((cfg2.win 0).blk t).view.emb (ix3 r h d)) = V c main_v21 (ix3 e h d)
    refine congrArg (V c main_v21) (funext fun a => Fin.ext ?_)
    match a with
    | ⟨0, _⟩ => show win2_0.index t (0 : Fin 3) * 800 + 1 * r.val = e.val; omega
    | ⟨1, _⟩ => show win2_0.index t (1 : Fin 3) * 4 + 1 * h.val = h.val; omega
    | ⟨2, _⟩ => show win2_0.index t (2 : Fin 3) * 16 + 1 * d.val = d.val; omega
  · show V c main_v28 (((cfg2.win 1).blk t).view.emb (ix3 r h d)) = V c main_v28 (ix3 e h d)
    refine congrArg (V c main_v28) (funext fun a => Fin.ext ?_)
    match a with
    | ⟨0, _⟩ => show win2_1.index t (0 : Fin 3) * 800 + 1 * r.val = e.val; omega
    | ⟨1, _⟩ => show win2_1.index t (1 : Fin 3) * 4 + 1 * h.val = h.val; omega
    | ⟨2, _⟩ => show win2_1.index t (2 : Fin 3) * 16 + 1 * d.val = d.val; omega
  · show V c main_v35 (((cfg2.win 2).blk t).view.emb (ix3 r h d)) = V c main_v35 (ix3 e h d)
    refine congrArg (V c main_v35) (funext fun a => Fin.ext ?_)
    match a with
    | ⟨0, _⟩ => show win2_2.index t (0 : Fin 3) * 800 + 1 * r.val = e.val; omega
    | ⟨1, _⟩ => show win2_2.index t (1 : Fin 3) * 4 + 1 * h.val = h.val; omega
    | ⟨2, _⟩ => show win2_2.index t (2 : Fin 3) * 16 + 1 * d.val = d.val; omega
  · show V c main_v10 (((cfg2.win 3).blk t).view.emb (ix3 r h d)) = V c main_v10 (ix3 e h d)
    refine congrArg (V c main_v10) (funext fun a => Fin.ext ?_)
    match a with
    | ⟨0, _⟩ => show win2_3.index t (0 : Fin 3) * 800 + 1 * r.val = e.val; omega
    | ⟨1, _⟩ => show win2_3.index t (1 : Fin 3) * 4 + 1 * h.val = h.val; omega
    | ⟨2, _⟩ => show win2_3.index t (2 : Fin 3) * 16 + 1 * d.val = d.val; omega

/-- The block's score row at point `t` is the arrays' score at edge 800·t + r. -/
theorem scoreRow_blk (c : Dev nD) (t : Fin cfg2.N) (r : Fin 800) (h : Fin 4) (e : Fin 1600000) (he : e.val = t.val * 800 + r.val) :
    scoreRow (fun d => iblk2 V c 0 t (ix3 r h d)) (fun d => iblk2 V c 1 t (ix3 r h d)) (fun d => iblk2 V c 3 t (ix3 r h d))
      = scoreAt (V c main_v21) (V c main_v28) (V c main_v10) e h := by
  unfold scoreAt
  have h0 : (fun d : Fin 16 => iblk2 V c 0 t (ix3 r h d)) = fun d => V c main_v21 (ix3 e h d) := funext fun d => (iblk2_apply V c t r h d e he).1
  have h1 : (fun d : Fin 16 => iblk2 V c 1 t (ix3 r h d)) = fun d => V c main_v28 (ix3 e h d) := funext fun d => (iblk2_apply V c t r h d e he).2.1
  have h3 : (fun d : Fin 16 => iblk2 V c 3 t (ix3 r h d)) = fun d => V c main_v10 (ix3 e h d) := funext fun d => (iblk2_apply V c t r h d e he).2.2.2
  rw [h0, h1, h3]

/-- What point `t` writes back to the message array is block `t` of `Gm`. -/
theorem flushed2_4_eq (c : Dev nD) (t : Fin cfg2.N) :
    (dat2 V c).flushed 4 t = ((cfg2.win 4).blk t).view.read (Elt Ideal) (Gm (V c main_v21) (V c main_v28) (V c main_v35) (V c main_v10)) := by
  show (cfg2.win 4).cut (grid2.coords t) ((dat2 V c).after 4 t) = _
  rw [after2_4]
  unfold out2_4
  rw [View.canon_unit_zero hz3_2]
  simp only [View.ld_unit_zero (S := S800x4x16) hz3_2]
  obtain ⟨-, -, -, -, ⟨e0, e1, e2⟩, -⟩ := idx_facts2 t
  funext j
  obtain ⟨r, h, d, rfl⟩ : ∃ (r : Fin 800) (h : Fin 4) (d : Fin 16), j = ix3 r h d := ⟨j 0, j 1, j 2, eq_ix3 j⟩
  have hr : r.val < 800 := r.isLt
  have ht : t.val < grid2.N := t.isLt
  rw [N_2] at ht
  have hrow : t.val * 800 + r.val < 1600000 := by omega
  have hemb : ((cfg2.win 4).blk t).view.emb (ix3 r h d) = ix3 (⟨t.val * 800 + r.val, hrow⟩ : Fin 1600000) h d := by
    funext a; apply Fin.ext
    match a with
    | ⟨0, _⟩ => show win2_4.index t (0 : Fin 3) * 800 + 1 * r.val = t.val * 800 + r.val; omega
    | ⟨1, _⟩ => show win2_4.index t (1 : Fin 3) * 4 + 1 * h.val = h.val; omega
    | ⟨2, _⟩ => show win2_4.index t (2 : Fin 3) * 16 + 1 * d.val = d.val; omega
  show k2_pay2 (F := Ideal) (iblk2 V c 0 t) (iblk2 V c 1 t) (iblk2 V c 2 t) (iblk2 V c 3 t) (ix3 r h d)
    = Gm (V c main_v21) (V c main_v28) (V c main_v35) (V c main_v10) (((cfg2.win 4).blk t).view.emb (ix3 r h d))
  rw [hemb, Gm_apply]
  refine (k2_pay2_apply (iblk2 V c 0 t) (iblk2 V c 1 t) (iblk2 V c 2 t) (iblk2 V c 3 t) r h d).trans ?_
  rw [scoreRow_blk V c t r h ⟨t.val * 800 + r.val, hrow⟩ rfl, (iblk2_apply V c t r h d ⟨t.val * 800 + r.val, hrow⟩ rfl).2.2.1]

/-- What point `t` writes back to the score array is block `t` of `Gs`. -/
theorem flushed2_5_eq (c : Dev nD) (t : Fin cfg2.N) :
    (dat2 V c).flushed 5 t = ((cfg2.win 5).blk t).view.read (Elt Ideal) (Gs (V c main_v21) (V c main_v28) (V c main_v10)) := by
  show (cfg2.win 5).cut (grid2.coords t) ((dat2 V c).after 5 t) = _
  rw [after2_5]
  unfold out2_5
  rw [View.canon_unit_zero hz3_2]
  simp only [View.ld_unit_zero (S := S800x4x16) hz3_2]
  obtain ⟨-, -, -, -, -, ⟨e0, e1, e2⟩⟩ := idx_facts2 t
  funext j
  obtain ⟨r, h, z, rfl⟩ : ∃ (r : Fin 800) (h : Fin 4) (z : Fin 1), j = ix3 r h z := ⟨j 0, j 1, j 2, eq_ix3 j⟩
  obtain rfl : z = 0 := Subsingleton.elim _ _
  have hr : r.val < 800 := r.isLt
  have ht : t.val < grid2.N := t.isLt
  rw [N_2] at ht
  have hrow : t.val * 800 + r.val < 1600000 := by omega
  have hemb : ((cfg2.win 5).blk t).view.emb (ix3 r h (0 : Fin 1)) = ix3 (⟨t.val * 800 + r.val, hrow⟩ : Fin 1600000) h (0 : Fin 1) := by
    funext a; apply Fin.ext
    match a with
    | ⟨0, _⟩ => show win2_5.index t (0 : Fin 3) * 800 + 1 * r.val = t.val * 800 + r.val; omega
    | ⟨1, _⟩ => show win2_5.index t (1 : Fin 3) * 4 + 1 * h.val = h.val; omega
    | ⟨2, _⟩ => show win2_5.index t (2 : Fin 3) * 1 + 1 * 0 = 0; omega
  show k2_pay1 (F := Ideal) (iblk2 V c 0 t) (iblk2 V c 1 t) (iblk2 V c 3 t) (ix3 r h (0 : Fin 1))
    = Gs (V c main_v21) (V c main_v28) (V c main_v10) (((cfg2.win 5).blk t).view.emb (ix3 r h (0 : Fin 1)))
  rw [hemb, Gs_apply]
  refine (k2_pay1_apply (iblk2 V c 0 t) (iblk2 V c 1 t) (iblk2 V c 3 t) r h).trans ?_
  exact scoreRow_blk V c t r h ⟨t.val * 800 + r.val, hrow⟩ rfl

theorem mem_blk2_4 (t : Fin cfg2.N) (i : S1600000x4x16.Idx) :
    i ∈ ((cfg2.win 4).blk t).view.set ↔ ∀ a : Fin 3, win2_4.index t a * S800x4x16.size a ≤ (i a).val ∧ (i a).val < win2_4.index t a * S800x4x16.size a + S800x4x16.size a := by
  show i ∈ ((View.whole main_v36_0).slice (win2_4.rect t)).set ↔ _
  rw [View.set_slice_whole, Rect.mem_set_unit]
  exact Iff.rfl
theorem mem_blk2_5 (t : Fin cfg2.N) (i : S1600000x4x1.Idx) :
    i ∈ ((cfg2.win 5).blk t).view.set ↔ ∀ a : Fin 3, win2_5.index t a * S800x4x1.size a ≤ (i a).val ∧ (i a).val < win2_5.index t a * S800x4x1.size a + S800x4x1.size a := by
  show i ∈ ((View.whole main_v36_1).slice (win2_5.rect t)).set ↔ _
  rw [View.set_slice_whole, Rect.mem_set_unit]
  exact Iff.rfl

/-- Every index of the message array is in the block of the point numbered (edge / 800). -/
theorem cover2_4' (i : S1600000x4x16.Idx) : ∃ t : Fin cfg2.N, (cfg2.win 4).flush t = true ∧ i ∈ ((cfg2.win 4).blk t).view.set := by
  have hi0 : (i 0).val < 1600000 := (i 0).isLt
  have hi1 : (i 1).val < 4 := (i 1).isLt
  have hi2 : (i 2).val < 16 := (i 2).isLt
  have hN : grid2.N = 2000 := N_2
  have ht : (i 0).val / 800 < grid2.N := by rw [hN]; omega
  obtain ⟨-, -, -, -, ⟨e0, e1, e2⟩, -⟩ := idx_facts2 ⟨(i 0).val / 800, ht⟩
  have e0' : win2_4.index ⟨(i 0).val / 800, ht⟩ (0 : Fin 3) = (i 0).val / 800 := e0
  refine ⟨⟨(i 0).val / 800, ht⟩, flush2_4 _, ?_⟩
  rw [mem_blk2_4]
  intro a
  match a with
  | ⟨0, _⟩ => show win2_4.index ⟨(i 0).val / 800, ht⟩ (0 : Fin 3) * 800 ≤ (i 0).val ∧ (i 0).val < win2_4.index ⟨(i 0).val / 800, ht⟩ (0 : Fin 3) * 800 + 800; omega
  | ⟨1, _⟩ => show win2_4.index ⟨(i 0).val / 800, ht⟩ (1 : Fin 3) * 4 ≤ (i 1).val ∧ (i 1).val < win2_4.index ⟨(i 0).val / 800, ht⟩ (1 : Fin 3) * 4 + 4; omega
  | ⟨2, _⟩ => show win2_4.index ⟨(i 0).val / 800, ht⟩ (2 : Fin 3) * 16 ≤ (i 2).val ∧ (i 2).val < win2_4.index ⟨(i 0).val / 800, ht⟩ (2 : Fin 3) * 16 + 16; omega

/-- Every index of the score array is in the block of the point numbered (edge / 800). -/
theorem cover2_5' (i : S1600000x4x1.Idx) : ∃ t : Fin cfg2.N, (cfg2.win 5).flush t = true ∧ i ∈ ((cfg2.win 5).blk t).view.set := by
  have hi0 : (i 0).val < 1600000 := (i 0).isLt
  have hi1 : (i 1).val < 4 := (i 1).isLt
  have hi2 : (i 2).val < 1 := (i 2).isLt
  have hN : grid2.N = 2000 := N_2
  have ht : (i 0).val / 800 < grid2.N := by rw [hN]; omega
  obtain ⟨-, -, -, -, -, ⟨e0, e1, e2⟩⟩ := idx_facts2 ⟨(i 0).val / 800, ht⟩
  have e0' : win2_5.index ⟨(i 0).val / 800, ht⟩ (0 : Fin 3) = (i 0).val / 800 := e0
  refine ⟨⟨(i 0).val / 800, ht⟩, flush2_5 _, ?_⟩
  rw [mem_blk2_5]
  intro a
  match a with
  | ⟨0, _⟩ => show win2_5.index ⟨(i 0).val / 800, ht⟩ (0 : Fin 3) * 800 ≤ (i 0).val ∧ (i 0).val < win2_5.index ⟨(i 0).val / 800, ht⟩ (0 : Fin 3) * 800 + 800; omega
  | ⟨1, _⟩ => show win2_5.index ⟨(i 0).val / 800, ht⟩ (1 : Fin 3) * 4 ≤ (i 1).val ∧ (i 1).val < win2_5.index ⟨(i 0).val / 800, ht⟩ (1 : Fin 3) * 4 + 4; omega
  | ⟨2, _⟩ => show win2_5.index ⟨(i 0).val / 800, ht⟩ (2 : Fin 3) * 1 ≤ (i 2).val ∧ (i 2).val < win2_5.index ⟨(i 0).val / 800, ht⟩ (2 : Fin 3) * 1 + 1; omega

/-- The message array after the region. -/
theorem final2_4 (c : Dev nD) : (dat2 V c).arrAt 4 cfg2.N = Gm (V c main_v21) (V c main_v28) (V c main_v35) (V c main_v10) :=
  (dat2 V c).arrAt_eq_of_cover 4 _ (fun t _ => flushed2_4_eq V c t) cover2_4'

/-- The score array after the region. -/
theorem final2_5 (c : Dev nD) : (dat2 V c).arrAt 5 cfg2.N = Gs (V c main_v21) (V c main_v28) (V c main_v10) :=
  (dat2 V c).arrAt_eq_of_cover 5 _ (fun t _ => flushed2_5_eq V c t) cover2_5'

end Cert.KernelIdeal.Frame

end
-- ==== Proof.LibHostReads.lean ====
/-
  Reading a line of host operations at a buffer, below an operand list.

  The buffers after a line of host operations are a fold: each operation rewrites its result buffer to its function of
  its operands' contents and leaves every other buffer as it was. One rewriting pass (`after_results_simp`) computes
  such a read down to the arguments, except below an operand LIST — the pieces of a concatenation, a list of pairs
  (shape, array) — where the pass does not descend and leaves reads of the form "this operation's result over what
  came before, at that buffer". The tactic `host_reads` finishes those reads one operation at a time: an operation's
  result at its own buffer is its function's value, at another buffer what was there (the two buffers told apart as
  references). Use: `simp only [<the list's name>]; after_results_simp; host_reads`, then `rfl` or the certificate's
  own lemma. General: nothing here depends on a program.
-/
import Idealize.ShloMosaic.Lib.StableHlo.Run

namespace Cert.LibHostReads

open Idealize.ShloMosaic Idealize.ShloMosaic.StableHlo

/-- Each operation's result at its own buffer is its function's value, at another buffer what was there. -/
macro "host_reads" : tactic =>
  `(tactic| repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)))

end Cert.LibHostReads
-- ==== Proof.HostRead0.lean ====
/-
  The program's first line of host operations, read at its two results: the three weight matrices joined side by side
  into one [64, 192] matrix, and the three bias vectors joined end to end into one of length 192 — each as the joining
  of the contents the line starts from.
-/
import proofs.«113294_j27779848470630_2_alg».proof.Proof.Gen.KernelIdeal.Launch
import proofs.«113294_j27779848470630_2_alg».proof.Proof.LibHostReads
import Idealize.ShloMosaic.Lib.StableHlo.Run
import Idealize.ShloMosaic.PureOps.Ideal

noncomputable section

namespace Cert.Bridge

open Idealize.ShloMosaic Idealize.ShloMosaic.StableHlo Cert.KernelIdeal Cert.KernelIdeal.Gen Cert.LibHostReads

variable (V : Valuation τ sig (Elt Ideal))

section
variable {τ' : Topo} {sig' : RefSig} {Val : EltTy → Type} {x0 x1 x2 y : Ref sig' .tc}

/-- A host operation over a literal family of three operand references: its result, with each operand's contents read
    at that operand's own reference (not under a binder over the family's index, where the reference is no literal). -/
theorem hostRead_nary3_result
    (f : ((k : Fin 3) → ((![x0, x1, x2] : Fin 3 → Ref sig' .tc) k).ty.Contents Val) → y.ty.Contents Val) (hxs hy)
    (W : Valuation τ' sig' Val) :
    (nary (τ := τ') ![x0, x1, x2] y f hxs hy).result W (Proc.devRef .tc y)
      = f (Fin.cons (W (Proc.devRef .tc x0)) (Fin.cons (W (Proc.devRef .tc x1)) (Fin.cons (W (Proc.devRef .tc x2)) (fun i => i.elim0)))) := by
  rw [nary_result]; congr 1; funext k; fin_cases k <;> rfl
end

theorem after0_v0 :
    StableHlo.after (hostOps0 (F := Ideal)) V (Proc.devRef .tc main_v0)
      = concatenate S64x192 1 [⟨S64x64, (V (Proc.devRef .tc main_arg3))⟩, ⟨S64x64, (V (Proc.devRef .tc main_arg5))⟩, ⟨S64x64, (V (Proc.devRef .tc main_arg9))⟩] concatenates_S64x64_S64x64_S64x64_S64x192_d1 := by
  simp only [after_cons, after_nil]
  rw [nary_result_ne _ _ _ _ _ _ (by decide), hostRead_nary3_result]
  -- each piece is the joined family read at a literal index
  rfl

theorem after0_v1 :
    StableHlo.after (hostOps0 (F := Ideal)) V (Proc.devRef .tc main_v1)
      = concatenate S192 0 [⟨S64, (V (Proc.devRef .tc main_arg4))⟩, ⟨S64, (V (Proc.devRef .tc main_arg6))⟩, ⟨S64, (V (Proc.devRef .tc main_arg10))⟩] concatenates_S64_S64_S64_S192_d0 := by
  simp only [after_cons, after_nil]
  rw [hostRead_nary3_result]
  -- the first operation writes none of the three bias buffers
  rw [nary_result_ne _ _ _ _ _ _ (by decide), nary_result_ne _ _ _ _ _ _ (by decide), nary_result_ne _ _ _ _ _ _ (by decide)]
  -- each piece is the joined family read at a literal index
  rfl

end Cert.Bridge

end
-- ==== Proof.HostRead1.lean ====
/-
  The line of host operations after the node projection, read at the buffers it feeds: the projection's three column
  blocks (queries, keys, values — columns 0–63, 64–127, 128–191), each cut out and viewed with heads and features
  apart — each as one composed term over the contents the line starts from.
-/
import proofs.«113294_j27779848470630_2_alg».proof.Proof.Gen.KernelIdeal.Launch
import proofs.«113294_j27779848470630_2_alg».proof.Proof.LibHostReads
import Idealize.ShloMosaic.Lib.StableHlo.Run
import Idealize.ShloMosaic.PureOps.Ideal

noncomputable section

namespace Cert.Bridge

open Idealize.ShloMosaic Idealize.ShloMosaic.StableHlo Cert.KernelIdeal Cert.KernelIdeal.Gen Cert.LibHostReads

variable (V : Valuation τ sig (Elt Ideal))

theorem after1_v6 :
    StableHlo.after (hostOps1 (F := Ideal)) V (Proc.devRef .tc main_v6)
      = shapeCast _ (extractStridedSlice S50000x64 ![0, 0] (V (Proc.devRef .tc main_v2)) slices_S50000x192_S50000x64_0_0) shapeCasts_S50000x64_S50000x4x16 := by
  after_results_simp
  rfl

theorem after1_v7 :
    StableHlo.after (hostOps1 (F := Ideal)) V (Proc.devRef .tc main_v7)
      = shapeCast _ (extractStridedSlice S50000x64 ![0, 64] (V (Proc.devRef .tc main_v2)) slices_S50000x192_S50000x64_0_64) shapeCasts_S50000x64_S50000x4x16 := by
  after_results_simp
  rfl

theorem after1_v8 :
    StableHlo.after (hostOps1 (F := Ideal)) V (Proc.devRef .tc main_v8)
      = shapeCast _ (extractStridedSlice S50000x64 ![0, 128] (V (Proc.devRef .tc main_v2)) slices_S50000x192_S50000x64_0_128) shapeCasts_S50000x64_S50000x4x16 := by
  after_results_simp
  rfl

end Cert.Bridge

end
-- ==== Proof.HostRead2.lean ====
/-
  The line of host operations before the per-edge kernel, read at the buffers it feeds: the edge projection viewed with
  heads and features apart; the two rows of the edge list (sources, destinations), each cut out and flattened; each
  row's indices wrapped into range (a negative index has the node count added); and the three gathers of the node
  projections' rows by those wrapped indices — each as one composed term over the contents the line starts from.
-/
import proofs.«113294_j27779848470630_2_alg».proof.Proof.Gen.KernelIdeal.Launch
import proofs.«113294_j27779848470630_2_alg».proof.Proof.LibHostReads
import Idealize.ShloMosaic.Lib.StableHlo.Run
import Idealize.ShloMosaic.PureOps.Ideal

noncomputable section

namespace Cert.Bridge

open Idealize.ShloMosaic Idealize.ShloMosaic.StableHlo Cert.KernelIdeal Cert.KernelIdeal.Gen Cert.LibHostReads

variable (V : Valuation τ sig (Elt Ideal))

theorem after2_v10 :
    StableHlo.after (hostOps2 (F := Ideal)) V (Proc.devRef .tc main_v10)
      = shapeCast _ (V (Proc.devRef .tc main_v9)) shapeCasts_S1600000x64_S1600000x4x16 := by
  after_results_simp
  rfl

theorem after2_v14 :
    StableHlo.after (hostOps2 (F := Ideal)) V (Proc.devRef .tc main_v14)
      = shapeCast _ (extractStridedSlice S1x1600000 ![1, 0] (V (Proc.devRef .tc main_arg2)) slices_S2x1600000_S1x1600000_1_0) shapeCasts_S1x1600000_S1600000 := by
  after_results_simp
  rfl

theorem after2_v21 :
    StableHlo.after (hostOps2 (F := Ideal)) V (Proc.devRef .tc main_v21)
      = Host.gather gather_S50000x4x16_S1600000x1_S1600000x4x16_12_0_n_n_0_1_1416 (V (Proc.devRef .tc main_v7)) (broadcastInDim S1600000x1 ![0] bcast_S1600000_S1600000x1_0 (select (cmpi .slt (shapeCast _ (extractStridedSlice S1x1600000 ![0, 0] (V (Proc.devRef .tc main_arg2)) slices_S2x1600000_S1x1600000_0_0) shapeCasts_S1x1600000_S1600000) (broadcastInDim S1600000 ![] bcast_S_S1600000 (constantI S_ 32 0#32))) (addi (shapeCast _ (extractStridedSlice S1x1600000 ![0, 0] (V (Proc.devRef .tc main_arg2)) slices_S2x1600000_S1x1600000_0_0) shapeCasts_S1x1600000_S1600000) (broadcastInDim S1600000 ![] bcast_S_S1600000 (constantI S_ 32 50000#32))) (shapeCast _ (extractStridedSlice S1x1600000 ![0, 0] (V (Proc.devRef .tc main_arg2)) slices_S2x1600000_S1x1600000_0_0) shapeCasts_S1x1600000_S1600000))) := by
  after_results_simp
  rfl

theorem after2_v28 :
    StableHlo.after (hostOps2 (F := Ideal)) V (Proc.devRef .tc main_v28)
      = Host.gather gather_S50000x4x16_S1600000x1_S1600000x4x16_12_0_n_n_0_1_1416 (V (Proc.devRef .tc main_v6)) (broadcastInDim S1600000x1 ![0] bcast_S1600000_S1600000x1_0 (select (cmpi .slt (shapeCast _ (extractStridedSlice S1x1600000 ![1, 0] (V (Proc.devRef .tc main_arg2)) slices_S2x1600000_S1x1600000_1_0) shapeCasts_S1x1600000_S1600000) (broadcastInDim S1600000 ![] bcast_S_S1600000 (constantI S_ 32 0#32))) (addi (shapeCast _ (extractStridedSlice S1x1600000 ![1, 0] (V (Proc.devRef .tc main_arg2)) slices_S2x1600000_S1x1600000_1_0) shapeCasts_S1x1600000_S1600000) (broadcastInDim S1600000 ![] bcast_S_S1600000 (constantI S_ 32 50000#32))) (shapeCast _ (extractStridedSlice S1x1600000 ![1, 0] (V (Proc.devRef .tc main_arg2)) slices_S2x1600000_S1x1600000_1_0) shapeCasts_S1x1600000_S1600000))) := by
  after_results_simp
  rfl

theorem after2_v35 :
    StableHlo.after (hostOps2 (F := Ideal)) V (Proc.devRef .tc main_v35)
      = Host.gather gather_S50000x4x16_S1600000x1_S1600000x4x16_12_0_n_n_0_1_1416 (V (Proc.devRef .tc main_v8)) (broadcastInDim S1600000x1 ![0] bcast_S1600000_S1600000x1_0 (select (cmpi .slt (shapeCast _ (extractStridedSlice S1x1600000 ![0, 0] (V (Proc.devRef .tc main_arg2)) slices_S2x1600000_S1x1600000_0_0) shapeCasts_S1x1600000_S1600000) (broadcastInDim S1600000 ![] bcast_S_S1600000 (constantI S_ 32 0#32))) (addi (shapeCast _ (extractStridedSlice S1x1600000 ![0, 0] (V (Proc.devRef .tc main_arg2)) slices_S2x1600000_S1x1600000_0_0) shapeCasts_S1x1600000_S1600000) (broadcastInDim S1600000 ![] bcast_S_S1600000 (constantI S_ 32 50000#32))) (shapeCast _ (extractStridedSlice S1x1600000 ![0, 0] (V (Proc.devRef .tc main_arg2)) slices_S2x1600000_S1x1600000_0_0) shapeCasts_S1x1600000_S1600000))) := by
  after_results_simp
  rfl

end Cert.Bridge

end
-- ==== Proof.HostRead3.lean ====
/-
  The program's last line of host operations, read at its result: the two segment sums (scatter-add into zeros, by the
  destination node of each edge), the small constant added to the summed scores, that sum spread along the feature
  axis, and the quotient — as one composed term over the contents the line starts from.
-/
import proofs.«113294_j27779848470630_2_alg».proof.Proof.Gen.KernelIdeal.Launch
import proofs.«113294_j27779848470630_2_alg».proof.Proof.LibHostReads
import Idealize.ShloMosaic.Lib.StableHlo.Run
import Idealize.ShloMosaic.PureOps.Ideal

noncomputable section

namespace Cert.Bridge

open Idealize.ShloMosaic Idealize.ShloMosaic.StableHlo Cert.KernelIdeal Cert.KernelIdeal.Gen Cert.LibHostReads

variable (V : Valuation τ sig (Elt Ideal))

theorem after3_v46 :
    StableHlo.after (hostOps3 (F := Ideal)) V (Proc.devRef .tc main_v46)
      = Host.divf (F := Ideal) (Host.scatterAdd (F := Ideal) scatter_S50000x4x16_S1600000x1_S1600000x4x16_12_0_0_1 (broadcastInDim S50000x4x16 ![] bcast_S_S50000x4x16 (constant (F := Ideal) S_ .f32 0x00000000#32)) (broadcastInDim S1600000x1 ![0] bcast_S1600000_S1600000x1_0 (V (Proc.devRef .tc main_v14))) (V (Proc.devRef .tc main_v36_0))) (broadcastInDim S50000x4x16 ![0, 1, 2] bcast_S50000x4x1_S50000x4x16_0_1_2 (addf (Host.scatterAdd (F := Ideal) scatter_S50000x4x1_S1600000x1_S1600000x4x1_12_0_0_1 (broadcastInDim S50000x4x1 ![] bcast_S_S50000x4x1 (constant (F := Ideal) S_ .f32 0x00000000#32)) (broadcastInDim S1600000x1 ![0] bcast_S1600000_S1600000x1_0 (V (Proc.devRef .tc main_v14))) (V (Proc.devRef .tc main_v36_1))) (broadcastInDim S50000x4x1 ![] bcast_S_S50000x4x1 (constant (F := Ideal) S_ .f32 0x358637BD#32)))) := by
  after_results

end Cert.Bridge

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.DenseHost.lean ====
/-
  The reference's dense layers read at an entry.

  The host computes x·w + b as a contraction of the second axis of x against the first axis of w (entry (p, q) of the
  product is Σ_k x(p, k)·w(k, q) over the extended reals), and adds the bias vector laid along a one-row array and
  repeated down the rows (entry (p, q) of the repeated array is b(q)).  So entry (p, q) of the layer is the shared
  dense formula, for the node layer and for the edge layer alike.
-/
import proofs.«113294_j27779848470630_2_alg».proof.Proof.Gen.ReferenceIdeal
import proofs.«113294_j27779848470630_2_alg».proof.Proof.Spec
import proofs.«113294_j27779848470630_2_alg».proof.Proof.LibPlainDot
import proofs.«113294_j27779848470630_2_alg».proof.Proof.LibRowBcast

noncomputable section

namespace Cert.Bridge

open Idealize.ShloMosaic Idealize.ShloMosaic.ValueIdx Cert.ReferenceIdeal Cert.ReferenceIdeal.Gen

/-- The node layer's dimension numbers are those of a plain product. -/
theorem plain_host_dot_nodes : Cert.LibPlainDot.Plain dot_S50000x64_S64x64_S50000x64_1_0_0_1_n_n :=
  ⟨rfl, rfl, rfl, rfl, rfl, rfl⟩

/-- The edge layer's dimension numbers are those of a plain product. -/
theorem plain_host_dot_edges : Cert.LibPlainDot.Plain dot_S1600000x64_S64x64_S1600000x64_1_0_0_1_n_n :=
  ⟨rfl, rfl, rfl, rfl, rfl, rfl⟩

/-- Entry `(p, q)` of the reference's node layer is `Σ_k x(p, k)·w(k, q) + b(q)`. -/
theorem host_dense_nodes_apply (x : FVec Ideal S50000x64 .f32) (w : FVec Ideal S64x64 .f32) (b : FVec Ideal S64 .f32)
    (p : Fin 50000) (q : Fin 64) :
    addf (Host.dotGeneral (F := Ideal) dot_S50000x64_S64x64_S50000x64_1_0_0_1_n_n none x w)
      (broadcastInDim S50000x64 ![0, 1] bcast_S1x64_S50000x64_0_1 (broadcastInDim S1x64 ![1] bcast_S64_S1x64_1 b)) (ix2 p q)
      = denseAt x w b p q := by
  unfold denseAt
  refine (addf_apply _ _ _).trans ?_
  refine congrArg₂ (· + ·) ?_ ?_
  · exact plain_host_dot_nodes.dotGeneral_apply none .single x w p q
  · exact Cert.LibRowBcast.bcast_vec_rows_apply bcast_S64_S1x64_1 bcast_S1x64_S50000x64_0_1 b p q

/-- Entry `(p, q)` of the reference's edge layer is `Σ_k x(p, k)·w(k, q) + b(q)`. -/
theorem host_dense_edges_apply (x : FVec Ideal S1600000x64 .f32) (w : FVec Ideal S64x64 .f32) (b : FVec Ideal S64 .f32)
    (p : Fin 1600000) (q : Fin 64) :
    addf (Host.dotGeneral (F := Ideal) dot_S1600000x64_S64x64_S1600000x64_1_0_0_1_n_n none x w)
      (broadcastInDim S1600000x64 ![0, 1] bcast_S1x64_S1600000x64_0_1 (broadcastInDim S1x64 ![1] bcast_S64_S1x64_1 b)) (ix2 p q)
      = denseAt x w b p q := by
  unfold denseAt
  refine (addf_apply _ _ _).trans ?_
  refine congrArg₂ (· + ·) ?_ ?_
  · exact plain_host_dot_edges.dotGeneral_apply none .single x w p q
  · exact Cert.LibRowBcast.bcast_vec_rows_apply bcast_S64_S1x64_1 bcast_S1x64_S1600000x64_0_1 b p q

end Cert.Bridge

end
-- ==== Proof.DenseConcat.lean ====
/-
  Three weight matrices joined side by side, and three bias vectors joined end to end, read at an entry; and the
  dense formula against the joined operands.

  Joining three [64, 64] arrays along the second axis gives a [64, 192] array whose entry (k, 64·j + q) is the j-th
  array's entry (k, q); joining three [64] vectors gives a [192] vector whose entry 64·j + q is the j-th vector's
  entry q.  The dense formula at column 64·j + q reads only that column of the joined weights and that entry of the
  joined bias, so it is the dense formula of the j-th weight matrix and bias at column q.
-/
import proofs.«113294_j27779848470630_2_alg».proof.Proof.Gen.KernelIdeal
import proofs.«113294_j27779848470630_2_alg».proof.Proof.Spec
import Idealize.ShloMosaic.Lib.Pipeline.Value

noncomputable section

namespace Cert.Bridge

open Idealize.ShloMosaic Idealize.ShloMosaic.ValueIdx Cert.KernelIdeal Cert.KernelIdeal.Gen

section Pieces

variable {α : Type}

/-- Column `0 + q` of the joined weights is column `q` of the first matrix. -/
theorem concat3_cols_apply_0 (w0 w1 w2 : S64x64.Idx → α) (k : Fin 64) (q : Fin 64) (q' : Fin 192) (hq : q'.val = q.val) :
    concatenate S64x192 1 [⟨S64x64, w0⟩, ⟨S64x64, w1⟩, ⟨S64x64, w2⟩] concatenates_S64x64_S64x64_S64x64_S64x192_d1 (ix2 k q') = w0 (ix2 k q) :=
  concatenate_apply_piece 1 _ _ (ix2 k q') 0 (by show 0 < 3; omega) S64x64 w0 rfl rfl 0 rfl (ix2 k q)
    (fun b hb => by
      match b with
      | ⟨0, _⟩ => rfl
      | ⟨1, _⟩ => exact absurd rfl hb)
    (by show 0 + q.val = q'.val; omega)

/-- Column `64 + q` of the joined weights is column `q` of the second matrix. -/
theorem concat3_cols_apply_1 (w0 w1 w2 : S64x64.Idx → α) (k : Fin 64) (q : Fin 64) (q' : Fin 192) (hq : q'.val = 64 + q.val) :
    concatenate S64x192 1 [⟨S64x64, w0⟩, ⟨S64x64, w1⟩, ⟨S64x64, w2⟩] concatenates_S64x64_S64x64_S64x64_S64x192_d1 (ix2 k q') = w1 (ix2 k q) :=
  concatenate_apply_piece 1 _ _ (ix2 k q') 1 (by show 1 < 3; omega) S64x64 w1 rfl rfl 64 rfl (ix2 k q)
    (fun b hb => by
      match b with
      | ⟨0, _⟩ => rfl
      | ⟨1, _⟩ => exact absurd rfl hb)
    (by show 64 + q.val = q'.val; omega)

/-- Column `128 + q` of the joined weights is column `q` of the third matrix. -/
theorem concat3_cols_apply_2 (w0 w1 w2 : S64x64.Idx → α) (k : Fin 64) (q : Fin 64) (q' : Fin 192) (hq : q'.val = 128 + q.val) :
    concatenate S64x192 1 [⟨S64x64, w0⟩, ⟨S64x64, w1⟩, ⟨S64x64, w2⟩] concatenates_S64x64_S64x64_S64x64_S64x192_d1 (ix2 k q') = w2 (ix2 k q) :=
  concatenate_apply_piece 1 _ _ (ix2 k q') 2 (by show 2 < 3; omega) S64x64 w2 rfl rfl 128 rfl (ix2 k q)
    (fun b hb => by
      match b with
      | ⟨0, _⟩ => rfl
      | ⟨1, _⟩ => exact absurd rfl hb)
    (by show 128 + q.val = q'.val; omega)

/-- Entry `0 + q` of the joined bias is entry `q` of the first vector. -/
theorem concat3_vec_apply_0 (b0 b1 b2 : S64.Idx → α) (q : Fin 64) (q' : Fin 192) (hq : q'.val = q.val) :
    concatenate S192 0 [⟨S64, b0⟩, ⟨S64, b1⟩, ⟨S64, b2⟩] concatenates_S64_S64_S64_S192_d0 (ix1 q') = b0 (ix1 q) :=
  concatenate_apply_piece 0 _ _ (ix1 q') 0 (by show 0 < 3; omega) S64 b0 rfl rfl 0 rfl (ix1 q)
    (fun b hb => by
      match b with
      | ⟨0, _⟩ => exact absurd rfl hb)
    (by show 0 + q.val = q'.val; omega)

/-- Entry `64 + q` of the joined bias is entry `q` of the second vector. -/
theorem concat3_vec_apply_1 (b0 b1 b2 : S64.Idx → α) (q : Fin 64) (q' : Fin 192) (hq : q'.val = 64 + q.val) :
    concatenate S192 0 [⟨S64, b0⟩, ⟨S64, b1⟩, ⟨S64, b2⟩] concatenates_S64_S64_S64_S192_d0 (ix1 q') = b1 (ix1 q) :=
  concatenate_apply_piece 0 _ _ (ix1 q') 1 (by show 1 < 3; omega) S64 b1 rfl rfl 64 rfl (ix1 q)
    (fun b hb => by
      match b with
      | ⟨0, _⟩ => exact absurd rfl hb)
    (by show 64 + q.val = q'.val; omega)

/-- Entry `128 + q` of the joined bias is entry `q` of the third vector. -/
theorem concat3_vec_apply_2 (b0 b1 b2 : S64.Idx → α) (q : Fin 64) (q' : Fin 192) (hq : q'.val = 128 + q.val) :
    concatenate S192 0 [⟨S64, b0⟩, ⟨S64, b1⟩, ⟨S64, b2⟩] concatenates_S64_S64_S64_S192_d0 (ix1 q') = b2 (ix1 q) :=
  concatenate_apply_piece 0 _ _ (ix1 q') 2 (by show 2 < 3; omega) S64 b2 rfl rfl 128 rfl (ix1 q)
    (fun b hb => by
      match b with
      | ⟨0, _⟩ => exact absurd rfl hb)
    (by show 128 + q.val = q'.val; omega)

end Pieces

/-- The dense formula against the joined operands at column `0 + q` is that of the first pair at column `q`. -/
theorem denseAt_concat_0 {N : ℕ} (x : (⟨2, ![N, 64]⟩ : Shape).Idx → EReal) (w0 w1 w2 : S64x64.Idx → EReal)
    (b0 b1 b2 : S64.Idx → EReal) (p : Fin N) (q : Fin 64) (q' : Fin 192) (hq : q'.val = q.val) :
    denseAt x (concatenate S64x192 1 [⟨S64x64, w0⟩, ⟨S64x64, w1⟩, ⟨S64x64, w2⟩] concatenates_S64x64_S64x64_S64x64_S64x192_d1)
      (concatenate S192 0 [⟨S64, b0⟩, ⟨S64, b1⟩, ⟨S64, b2⟩] concatenates_S64_S64_S64_S192_d0) p q' = denseAt x w0 b0 p q :=
  denseAt_congr (fun _ => rfl) (fun k => concat3_cols_apply_0 w0 w1 w2 k q q' hq) (concat3_vec_apply_0 b0 b1 b2 q q' hq)

/-- The dense formula against the joined operands at column `64 + q` is that of the second pair at column `q`. -/
theorem denseAt_concat_1 {N : ℕ} (x : (⟨2, ![N, 64]⟩ : Shape).Idx → EReal) (w0 w1 w2 : S64x64.Idx → EReal)
    (b0 b1 b2 : S64.Idx → EReal) (p : Fin N) (q : Fin 64) (q' : Fin 192) (hq : q'.val = 64 + q.val) :
    denseAt x (concatenate S64x192 1 [⟨S64x64, w0⟩, ⟨S64x64, w1⟩, ⟨S64x64, w2⟩] concatenates_S64x64_S64x64_S64x64_S64x192_d1)
      (concatenate S192 0 [⟨S64, b0⟩, ⟨S64, b1⟩, ⟨S64, b2⟩] concatenates_S64_S64_S64_S192_d0) p q' = denseAt x w1 b1 p q :=
  denseAt_congr (fun _ => rfl) (fun k => concat3_cols_apply_1 w0 w1 w2 k q q' hq) (concat3_vec_apply_1 b0 b1 b2 q q' hq)

/-- The dense formula against the joined operands at column `128 + q` is that of the third pair at column `q`. -/
theorem denseAt_concat_2 {N : ℕ} (x : (⟨2, ![N, 64]⟩ : Shape).Idx → EReal) (w0 w1 w2 : S64x64.Idx → EReal)
    (b0 b1 b2 : S64.Idx → EReal) (p : Fin N) (q : Fin 64) (q' : Fin 192) (hq : q'.val = 128 + q.val) :
    denseAt x (concatenate S64x192 1 [⟨S64x64, w0⟩, ⟨S64x64, w1⟩, ⟨S64x64, w2⟩] concatenates_S64x64_S64x64_S64x64_S64x192_d1)
      (concatenate S192 0 [⟨S64, b0⟩, ⟨S64, b1⟩, ⟨S64, b2⟩] concatenates_S64_S64_S64_S192_d0) p q' = denseAt x w2 b2 p q :=
  denseAt_congr (fun _ => rfl) (fun k => concat3_cols_apply_2 w0 w1 w2 k q q' hq) (concat3_vec_apply_2 b0 b1 b2 q q' hq)

end Cert.Bridge

end
-- ==== Proof.LibColumns.lean ====
/-
  Column ranges of a two-axis array, read at an entry.

  Taking `W` consecutive columns starting at column `o` of an `[R, C]` array — as a unit-stride slice of a value,
  or as a load through the unit-stride rectangle at offsets `(0, o)` — gives an array whose entry `(p, q)` is the
  original entry `(p, o + q)`; and that rectangle places its own entry `(p, q)` at `(p, o + q)`.  Generic in the
  extents, the offset and the entries' type.
-/
import Idealize.ShloMosaic.Lib.Pipeline.Value
import Idealize.ShloMosaic.Lib.ValueIdx

noncomputable section

namespace Cert.LibColumns

open Idealize.ShloMosaic Idealize.ShloMosaic.ValueIdx

variable {α : Type}

/-- A slice of `W` columns from column `o` (all rows) at `(p, q)` is the operand at `(p, o + q)`. -/
theorem slice_cols {R R' C W : Nat} (o : Nat) (x : (⟨2, ![R, C]⟩ : Shape).Idx → α)
    (h : (⟨2, ![R, C]⟩ : Shape).Slices ![0, o] ⟨2, ![R', W]⟩) (p : Fin R') (q : Fin W) (p' : Fin R) (q' : Fin C)
    (hp : p'.val = p.val) (hq : q'.val = o + q.val) :
    extractStridedSlice ⟨2, ![R', W]⟩ ![0, o] x h (ix2 p q) = x (ix2 p' q') :=
  extractStridedSlice_apply ![0, o] x h (ix2 p q) (ix2 p' q') fun a => by
    match a with
    | ⟨0, _⟩ => show p'.val = 0 + p.val; omega
    | ⟨1, _⟩ => exact hq

/-- The rectangle of `R'` rows and `W` columns at offsets `(0, o)` places its entry `(p, q)` at `(p, o + q)`. -/
theorem idx_cols {R R' C W : Nat} (o : Nat)
    (inb : ∀ a, (![0, o] : Fin 2 → Nat) a + (![R', W] : Fin 2 → Nat) a ≤ (⟨2, ![R, C]⟩ : Shape).size a)
    (p : Fin R') (q : Fin W) (p' : Fin R) (q' : Fin C) (hp : p'.val = p.val) (hq : q'.val = o + q.val) :
    (Rect.unit (s := ⟨2, ![R, C]⟩) ![0, o] ![R', W] inb).idx (ix2 p q) = ix2 p' q' :=
  funext fun a => Fin.ext (by
    match a with
    | ⟨0, _⟩ => show 0 + 1 * p.val = p'.val; omega
    | ⟨1, _⟩ => show o + 1 * q.val = q'.val; omega)

/-- A load through that rectangle at `(p, q)` reads the contents at `(p, o + q)`. -/
theorem ld_cols {Val : EltTy → Type} {e : EltTy} {R R' C W : Nat} (o : Nat) (X : (⟨2, ![R, C]⟩ : Shape).Idx → Val e)
    (inb : ∀ a, (![0, o] : Fin 2 → Nat) a + (![R', W] : Fin 2 → Nat) a ≤ (⟨2, ![R, C]⟩ : Shape).size a)
    (p : Fin R') (q : Fin W) (p' : Fin R) (q' : Fin C) (hp : p'.val = p.val) (hq : q'.val = o + q.val) :
    View.ld X (Rect.unit (s := ⟨2, ![R, C]⟩) ![0, o] ![R', W] inb) (ix2 p q) = X (ix2 p' q') :=
  congrArg X (idx_cols o inb p q p' q' hp hq)

end Cert.LibColumns

end
-- ==== Proof.DenseWhole.lean ====
/-
  The projections as whole arrays.

  If every entry (p, q') of an array is the dense formula of x against the three weight matrices joined side by side
  and the three biases joined end to end, then its columns 64·j … 64·j + 63 are, as a whole array, the reference's
  dense layer of x with the j-th weight matrix and bias; and an array whose every entry is the dense formula of its
  operands is the reference's dense layer of them.
-/
import proofs.«113294_j27779848470630_2_alg».proof.Proof.DenseHost
import proofs.«113294_j27779848470630_2_alg».proof.Proof.DenseConcat
import proofs.«113294_j27779848470630_2_alg».proof.Proof.LibColumns

noncomputable section

namespace Cert.Bridge

open Idealize.ShloMosaic Idealize.ShloMosaic.ValueIdx

/-- Columns `0 … 63` of the joined projection are the reference's node layer with the first weights and bias. -/
theorem nodes_slice_eq_0 (x : FVec Ideal Cert.ReferenceIdeal.S50000x64 .f32) (w0 w1 w2 : FVec Ideal Cert.ReferenceIdeal.S64x64 .f32)
    (b0 b1 b2 : FVec Ideal Cert.ReferenceIdeal.S64 .f32) (QKV : Cert.KernelIdeal.S50000x192.Idx → EReal)
    (hQKV : ∀ (p : Fin 50000) (q' : Fin 192), QKV (ix2 p q') = denseAt x
      (concatenate Cert.KernelIdeal.S64x192 1 [⟨Cert.KernelIdeal.S64x64, w0⟩, ⟨Cert.KernelIdeal.S64x64, w1⟩, ⟨Cert.KernelIdeal.S64x64, w2⟩] Cert.KernelIdeal.Gen.concatenates_S64x64_S64x64_S64x64_S64x192_d1)
      (concatenate Cert.KernelIdeal.S192 0 [⟨Cert.KernelIdeal.S64, b0⟩, ⟨Cert.KernelIdeal.S64, b1⟩, ⟨Cert.KernelIdeal.S64, b2⟩] Cert.KernelIdeal.Gen.concatenates_S64_S64_S64_S192_d0) p q') :
    extractStridedSlice Cert.KernelIdeal.S50000x64 ![0, 0] QKV Cert.KernelIdeal.Gen.slices_S50000x192_S50000x64_0_0
      = addf (Host.dotGeneral (F := Ideal) Cert.ReferenceIdeal.dot_S50000x64_S64x64_S50000x64_1_0_0_1_n_n none x w0)
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 b0)) := by
  funext i
  obtain ⟨p, q, rfl⟩ : ∃ (p : Fin 50000) (q : Fin 64), i = ix2 p q := ⟨i 0, i 1, eq_ix2 i⟩
  have hq' : 0 + q.val < 192 := by have := q.isLt; omega
  refine (Cert.LibColumns.slice_cols 0 QKV _ p q p ⟨0 + q.val, hq'⟩ rfl rfl).trans ?_
  refine (hQKV p _).trans ?_
  refine (denseAt_concat_0 x w0 w1 w2 b0 b1 b2 p q _ (Nat.zero_add _)).trans ?_
  exact (host_dense_nodes_apply x w0 b0 p q).symm

/-- Columns `64 … 127` of the joined projection are the reference's node layer with the second weights and bias. -/
theorem nodes_slice_eq_1 (x : FVec Ideal Cert.ReferenceIdeal.S50000x64 .f32) (w0 w1 w2 : FVec Ideal Cert.ReferenceIdeal.S64x64 .f32)
    (b0 b1 b2 : FVec Ideal Cert.ReferenceIdeal.S64 .f32) (QKV : Cert.KernelIdeal.S50000x192.Idx → EReal)
    (hQKV : ∀ (p : Fin 50000) (q' : Fin 192), QKV (ix2 p q') = denseAt x
      (concatenate Cert.KernelIdeal.S64x192 1 [⟨Cert.KernelIdeal.S64x64, w0⟩, ⟨Cert.KernelIdeal.S64x64, w1⟩, ⟨Cert.KernelIdeal.S64x64, w2⟩] Cert.KernelIdeal.Gen.concatenates_S64x64_S64x64_S64x64_S64x192_d1)
      (concatenate Cert.KernelIdeal.S192 0 [⟨Cert.KernelIdeal.S64, b0⟩, ⟨Cert.KernelIdeal.S64, b1⟩, ⟨Cert.KernelIdeal.S64, b2⟩] Cert.KernelIdeal.Gen.concatenates_S64_S64_S64_S192_d0) p q') :
    extractStridedSlice Cert.KernelIdeal.S50000x64 ![0, 64] QKV Cert.KernelIdeal.Gen.slices_S50000x192_S50000x64_0_64
      = addf (Host.dotGeneral (F := Ideal) Cert.ReferenceIdeal.dot_S50000x64_S64x64_S50000x64_1_0_0_1_n_n none x w1)
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 b1)) := by
  funext i
  obtain ⟨p, q, rfl⟩ : ∃ (p : Fin 50000) (q : Fin 64), i = ix2 p q := ⟨i 0, i 1, eq_ix2 i⟩
  have hq' : 64 + q.val < 192 := by have := q.isLt; omega
  refine (Cert.LibColumns.slice_cols 64 QKV _ p q p ⟨64 + q.val, hq'⟩ rfl rfl).trans ?_
  refine (hQKV p _).trans ?_
  refine (denseAt_concat_1 x w0 w1 w2 b0 b1 b2 p q _ rfl).trans ?_
  exact (host_dense_nodes_apply x w1 b1 p q).symm

/-- Columns `128 … 191` of the joined projection are the reference's node layer with the third weights and bias. -/
theorem nodes_slice_eq_2 (x : FVec Ideal Cert.ReferenceIdeal.S50000x64 .f32) (w0 w1 w2 : FVec Ideal Cert.ReferenceIdeal.S64x64 .f32)
    (b0 b1 b2 : FVec Ideal Cert.ReferenceIdeal.S64 .f32) (QKV : Cert.KernelIdeal.S50000x192.Idx → EReal)
    (hQKV : ∀ (p : Fin 50000) (q' : Fin 192), QKV (ix2 p q') = denseAt x
      (concatenate Cert.KernelIdeal.S64x192 1 [⟨Cert.KernelIdeal.S64x64, w0⟩, ⟨Cert.KernelIdeal.S64x64, w1⟩, ⟨Cert.KernelIdeal.S64x64, w2⟩] Cert.KernelIdeal.Gen.concatenates_S64x64_S64x64_S64x64_S64x192_d1)
      (concatenate Cert.KernelIdeal.S192 0 [⟨Cert.KernelIdeal.S64, b0⟩, ⟨Cert.KernelIdeal.S64, b1⟩, ⟨Cert.KernelIdeal.S64, b2⟩] Cert.KernelIdeal.Gen.concatenates_S64_S64_S64_S192_d0) p q') :
    extractStridedSlice Cert.KernelIdeal.S50000x64 ![0, 128] QKV Cert.KernelIdeal.Gen.slices_S50000x192_S50000x64_0_128
      = addf (Host.dotGeneral (F := Ideal) Cert.ReferenceIdeal.dot_S50000x64_S64x64_S50000x64_1_0_0_1_n_n none x w2)
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 b2)) := by
  funext i
  obtain ⟨p, q, rfl⟩ : ∃ (p : Fin 50000) (q : Fin 64), i = ix2 p q := ⟨i 0, i 1, eq_ix2 i⟩
  have hq' : 128 + q.val < 192 := by have := q.isLt; omega
  refine (Cert.LibColumns.slice_cols 128 QKV _ p q p ⟨128 + q.val, hq'⟩ rfl rfl).trans ?_
  refine (hQKV p _).trans ?_
  refine (denseAt_concat_2 x w0 w1 w2 b0 b1 b2 p q _ rfl).trans ?_
  exact (host_dense_nodes_apply x w2 b2 p q).symm

/-- An array whose every entry is the dense formula of its operands is the reference's edge layer of them. -/
theorem edges_eq (x : FVec Ideal Cert.ReferenceIdeal.S1600000x64 .f32) (w : FVec Ideal Cert.ReferenceIdeal.S64x64 .f32) (b : FVec Ideal Cert.ReferenceIdeal.S64 .f32)
    (E : Cert.ReferenceIdeal.S1600000x64.Idx → EReal) (hE : ∀ (p : Fin 1600000) (q : Fin 64), E (ix2 p q) = denseAt x w b p q) :
    E = addf (Host.dotGeneral (F := Ideal) Cert.ReferenceIdeal.dot_S1600000x64_S64x64_S1600000x64_1_0_0_1_n_n none x w)
          (broadcastInDim Cert.ReferenceIdeal.S1600000x64 ![0, 1] Cert.ReferenceIdeal.Gen.bcast_S1x64_S1600000x64_0_1
            (broadcastInDim Cert.ReferenceIdeal.S1x64 ![1] Cert.ReferenceIdeal.Gen.bcast_S64_S1x64_1 b)) := by
  funext i
  obtain ⟨p, q, rfl⟩ : ∃ (p : Fin 1600000) (q : Fin 64), i = ix2 p q := ⟨i 0, i 1, eq_ix2 i⟩
  exact (hE p q).trans (host_dense_edges_apply x w b p q).symm

end Cert.Bridge

end
-- ==== Proof.ScoreHost.lean ====
/-
  The reference's score and message at the extended reals, entry by entry. Over all 1600000 edges with 4 heads of
  width 16: the score array — the sum over the last axis of `K · Q · ¼ · E` from the zero word, kept as a trailing
  unit axis, clamped to `[-5, 5]` and exponentiated — reads at (edge e, head h) `scoreRow` of that row's entries; so an
  array that reads `scoreRow` there is that score array, and an array that reads at (e, h, d) the value entry times
  the score at (e, h) is the product of the value array with the score spread along the last axis.
-/
import proofs.«113294_j27779848470630_2_alg».proof.Proof.Gen.ReferenceIdeal
import proofs.«113294_j27779848470630_2_alg».proof.Proof.ScoreRow
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Cert.ReferenceIdeal Cert.ReferenceIdeal.Gen

/-- The reference's score array of the three per-edge arrays. -/
def hostScore (K Q Ee : FVec Ideal S1600000x4x16 .f32) : FVec Ideal S1600000x4x1 .f32 :=
  Host.exp (minimumf (broadcastInDim S1600000x4x1 ![] bcast_S_S1600000x4x1 (id (constant S_ .f32 0x40A00000#32))) (maximumf (broadcastInDim S1600000x4x1 ![] bcast_S_S1600000x4x1 (id (constant S_ .f32 0xC0A00000#32))) (broadcastInDim S1600000x4x1 ![0, 1] bcast_S1600000x4_S1600000x4x1_0_1 (Host.reduceAdd (mulf (mulf (mulf K Q) (broadcastInDim S1600000x4x16 ![] bcast_S_S1600000x4x16 (constant S_ .f32 0x3E800000#32))) Ee) (constant S_ .f32 0x00000000#32) reducesTo_S1600000x4x16_S1600000x4_d2 h_S_))))

/-- The host's exponential reads, at an index, the exponential of the operand there. -/
theorem hostExp_apply {s : Shape} (x : FVec Ideal s .f32) (i : s.Idx) : Host.exp x i = Ideal.exp (x i) := rfl

/-- A scalar word (passed through a conversion to its own format, the identity) spread over any shape reads the word
    at every index. -/
theorem bcast_scalar_word {t : Shape} (hb : S_.BroadcastsInDim t (![] : Fin 0 → Fin t.rank)) (b : BitVec 32) (j : t.Idx) :
    broadcastInDim t ![] hb (id (constant (F := Ideal) S_ .f32 b)) j = Ideal.ofBits .f32 b := rfl

/-- The same for a word spread directly. -/
theorem bcast_scalar_word' {t : Shape} (hb : S_.BroadcastsInDim t (![] : Fin 0 → Fin t.rank)) (b : BitVec 32) (j : t.Idx) :
    broadcastInDim t ![] hb (constant (F := Ideal) S_ .f32 b) j = Ideal.ofBits .f32 b := rfl

/-- The score array at (e, h): the two clamp bounds are scalars spread everywhere, the kept unit axis reads the sum at
    (e, h), and the host's sum over the last axis is its initial value plus the sum over `d` of the entries (e, h, d). -/
theorem hostScore_apply (K Q Ee : FVec Ideal S1600000x4x16 .f32) (e : Fin 1600000) (h : Fin 4) :
    hostScore K Q Ee (ix3 e h (0 : Fin 1))
      = scoreRow (fun d => K (ix3 e h d)) (fun d => Q (ix3 e h d)) (fun d => Ee (ix3 e h d)) := by
  unfold hostScore scoreRow
  rw [hostExp_apply, minimumf_apply, maximumf_apply, bcast_scalar_word, bcast_scalar_word]
  refine congrArg Ideal.exp (congrArg (min _) (congrArg (max _) ?_))
  refine (broadcastInDim_apply _ bcast_S1600000x4_S1600000x4x1_0_1 _ (ix3 e h (0 : Fin 1)) (ix2 e h) (fun a => ?_)).trans ?_
  · match a with
    | ⟨0, _⟩ => show e.val = if (1600000 : Nat) = 1 then 0 else e.val; rw [if_neg (by decide)]
    | ⟨1, _⟩ => show h.val = if (4 : Nat) = 1 then 0 else h.val; rw [if_neg (by decide)]
  have hr : S1600000x4x16.Reduces [2] S1600000x4 := by decide
  simp only [Host.reduceAdd, Ideal.hostReduceAdd_def]
  rw [Ideal.hostReduceAdd_single reducesTo_S1600000x4x16_S1600000x4_d2 hr, constant_apply]
  refine congrArg (_ + ·) (Finset.sum_congr rfl fun (d : Fin 16) _ => ?_)
  have hd : hr.lift (ix2 e h) d = ix3 e h d :=
    funext fun a => Fin.ext (by match a with | ⟨0, _⟩ => rfl | ⟨1, _⟩ => rfl | ⟨2, _⟩ => rfl)
  rw [hd, mulf_apply, mulf_apply, mulf_apply, bcast_scalar_word']

/-- An array over (edge, head, 1) that reads `scoreRow` of the row's entries at every (e, h) is the score array: an
    index of that shape is (e, h, 0), the last axis having one coordinate. -/
theorem score_eq (K Q Ee : FVec Ideal S1600000x4x16 .f32) (S : S1600000x4x1.Idx → EReal)
    (hS : ∀ (e : Fin 1600000) (h : Fin 4), S (ix3 e h (0 : Fin 1))
      = scoreRow (fun d => K (ix3 e h d)) (fun d => Q (ix3 e h d)) (fun d => Ee (ix3 e h d))) :
    S = hostScore K Q Ee := by
  funext j
  obtain ⟨e, h, u, rfl⟩ : ∃ (e : Fin 1600000) (h : Fin 4) (u : Fin 1), j = ix3 e h u := ⟨j 0, j 1, j 2, eq_ix3 j⟩
  obtain rfl : u = (0 : Fin 1) := Subsingleton.elim _ _
  exact (hS e h).trans (hostScore_apply K Q Ee e h).symm

/-- An array over (edge, head, lane) that reads at (e, h, d) the value entry times the score at (e, h) is the product
    of the value array with the score array spread along the last axis. -/
theorem msg_eq (V : FVec Ideal S1600000x4x16 .f32) (S : FVec Ideal S1600000x4x1 .f32) (M : S1600000x4x16.Idx → EReal)
    (hM : ∀ (e : Fin 1600000) (h : Fin 4) (d : Fin 16), M (ix3 e h d) = V (ix3 e h d) * S (ix3 e h (0 : Fin 1))) :
    M = mulf V (broadcastInDim S1600000x4x16 ![0, 1, 2] bcast_S1600000x4x1_S1600000x4x16_0_1_2 S) := by
  funext j
  obtain ⟨e, h, d, rfl⟩ : ∃ (e : Fin 1600000) (h : Fin 4) (d : Fin 16), j = ix3 e h d := ⟨j 0, j 1, j 2, eq_ix3 j⟩
  rw [hM, mulf_apply]
  refine congrArg (V (ix3 e h d) * ·) ?_
  refine (broadcastInDim_apply _ bcast_S1600000x4x1_S1600000x4x16_0_1_2 S (ix3 e h d) (ix3 e h (0 : Fin 1)) (fun a => ?_)).symm
  match a with
  | ⟨0, _⟩ => show e.val = if (1600000 : Nat) = 1 then 0 else e.val; rw [if_neg (by decide)]
  | ⟨1, _⟩ => show h.val = if (4 : Nat) = 1 then 0 else h.val; rw [if_neg (by decide)]
  | ⟨2, _⟩ => rfl

end Cert.Bridge

end
-- ==== Proof.KiBridge.lean ====
/-
  The kernel program's result, walked back through the fold of its host stretches and regions to the argument arrays,
  is the reference program's composed term of the same arrays.

  The node projection's output is the one function "x·[WQ|WK|WV] + [bQ|bK|bV] entry by entry"; each of its three column
  ranges is the reference's own dense layer x·W + b of the matching weights and bias, so the three projected tables
  (queries, keys, values, each recast to heads) are the reference's.  The edge projection's output is the reference's
  dense layer of the edge features.  Gathering rows of equal tables by the same wrapped row numbers gives equal
  gathered arrays; the score region's two outputs are then the reference's clamped exponentiated score of those arrays
  and its values-times-score; and the last stretch — two segment sums, the added constant, the quotient — is the same
  composition in both programs.
-/
import proofs.«113294_j27779848470630_2_alg».proof.Proof.KiRun
import proofs.«113294_j27779848470630_2_alg».proof.Proof.KiValue0
import proofs.«113294_j27779848470630_2_alg».proof.Proof.KiValue1
import proofs.«113294_j27779848470630_2_alg».proof.Proof.KiValue2
import proofs.«113294_j27779848470630_2_alg».proof.Proof.HostRead0
import proofs.«113294_j27779848470630_2_alg».proof.Proof.HostRead1
import proofs.«113294_j27779848470630_2_alg».proof.Proof.HostRead2
import proofs.«113294_j27779848470630_2_alg».proof.Proof.HostRead3
import proofs.«113294_j27779848470630_2_alg».proof.Proof.DenseWhole
import proofs.«113294_j27779848470630_2_alg».proof.Proof.ScoreHost

set_option maxRecDepth 16384

noncomputable section

namespace Cert.KernelIdeal.Frame

open Cert.KernelIdeal Cert.KernelIdeal.Gen Cert.Bridge
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## A buffer nothing has written yet holds its launch contents -/

theorem W1_keep (b : Ref sig .tc) (h0 : b ∉ hostOps0_W) : W1 m ρ c (Proc.devRef .tc b) = m ((c : Thread nD τ).loc b) :=
  (StableHlo.after_of_writes_sub hostOps0 _ hostOps0_writes h0).trans rfl
theorem W2_keep (b : Ref sig .tc) (h0 : b ∉ hostOps0_W) (r0 : ∀ w, Pipeline.arrRef spec0 w ≠ b) :
    W2 m ρ c (Proc.devRef .tc b) = m ((c : Thread nD τ).loc b) :=
  (W2_of_ne m ρ c b r0).trans (W1_keep m ρ c b h0)
theorem W3_keep (b : Ref sig .tc) (h0 : b ∉ hostOps0_W) (r0 : ∀ w, Pipeline.arrRef spec0 w ≠ b) (h1 : b ∉ hostOps1_W) :
    W3 m ρ c (Proc.devRef .tc b) = m ((c : Thread nD τ).loc b) :=
  (StableHlo.after_of_writes_sub hostOps1 _ hostOps1_writes h1).trans (W2_keep m ρ c b h0 r0)
theorem W4_keep (b : Ref sig .tc) (h0 : b ∉ hostOps0_W) (r0 : ∀ w, Pipeline.arrRef spec0 w ≠ b) (h1 : b ∉ hostOps1_W)
    (r1 : ∀ w, Pipeline.arrRef spec1 w ≠ b) : W4 m ρ c (Proc.devRef .tc b) = m ((c : Thread nD τ).loc b) :=
  (W4_of_ne m ρ c b r1).trans (W3_keep m ρ c b h0 r0 h1)

/-! ## The argument arrays, typed -/

abbrev arg0 : FVec Ideal Cert.ReferenceIdeal.S50000x64 .f32 := m ((c : Thread nD τ).loc main_arg0)
abbrev arg1 : FVec Ideal Cert.ReferenceIdeal.S1600000x64 .f32 := m ((c : Thread nD τ).loc main_arg1)
abbrev arg2 : S2x1600000.Idx → BitVec 32 := m ((c : Thread nD τ).loc main_arg2)
abbrev arg3 : FVec Ideal Cert.ReferenceIdeal.S64x64 .f32 := m ((c : Thread nD τ).loc main_arg3)
abbrev arg5 : FVec Ideal Cert.ReferenceIdeal.S64x64 .f32 := m ((c : Thread nD τ).loc main_arg5)
abbrev arg7 : FVec Ideal Cert.ReferenceIdeal.S64x64 .f32 := m ((c : Thread nD τ).loc main_arg7)
abbrev arg9 : FVec Ideal Cert.ReferenceIdeal.S64x64 .f32 := m ((c : Thread nD τ).loc main_arg9)
abbrev arg4 : FVec Ideal Cert.ReferenceIdeal.S64 .f32 := m ((c : Thread nD τ).loc main_arg4)
abbrev arg6 : FVec Ideal Cert.ReferenceIdeal.S64 .f32 := m ((c : Thread nD τ).loc main_arg6)
abbrev arg8 : FVec Ideal Cert.ReferenceIdeal.S64 .f32 := m ((c : Thread nD τ).loc main_arg8)
abbrev arg10 : FVec Ideal Cert.ReferenceIdeal.S64 .f32 := m ((c : Thread nD τ).loc main_arg10)

/-! ## The arrays, the way the reference spells them -/

/-- A dense layer of the node features: x·w + b. -/
def nodeLayer (w : FVec Ideal Cert.ReferenceIdeal.S64x64 .f32) (b : FVec Ideal Cert.ReferenceIdeal.S64 .f32) : FVec Ideal Cert.ReferenceIdeal.S50000x64 .f32 :=
  addf (Host.dotGeneral (F := Ideal) Cert.ReferenceIdeal.dot_S50000x64_S64x64_S50000x64_1_0_0_1_n_n none (arg0 m c) w)
    (broadcastInDim Cert.ReferenceIdeal.S50000x64 ![0, 1] Cert.ReferenceIdeal.Gen.bcast_S1x64_S50000x64_0_1
      (broadcastInDim Cert.ReferenceIdeal.S1x64 ![1] Cert.ReferenceIdeal.Gen.bcast_S64_S1x64_1 b))
/-- The dense layer of the edge features. -/
def edgeLayer : FVec Ideal Cert.ReferenceIdeal.S1600000x64 .f32 :=
  addf (Host.dotGeneral (F := Ideal) Cert.ReferenceIdeal.dot_S1600000x64_S64x64_S1600000x64_1_0_0_1_n_n none (arg1 m c) (arg7 m c))
    (broadcastInDim Cert.ReferenceIdeal.S1600000x64 ![0, 1] Cert.ReferenceIdeal.Gen.bcast_S1x64_S1600000x64_0_1
      (broadcastInDim Cert.ReferenceIdeal.S1x64 ![1] Cert.ReferenceIdeal.Gen.bcast_S64_S1x64_1 (arg8 m c)))
/-- The joined weights and biases the node projection reads. -/
def wcat : FVec Ideal S64x192 .f32 :=
  concatenate S64x192 1 [⟨S64x64, (arg3 m c)⟩, ⟨S64x64, (arg5 m c)⟩, ⟨S64x64, (arg9 m c)⟩] Cert.KernelIdeal.Gen.concatenates_S64x64_S64x64_S64x64_S64x192_d1
def bcat : FVec Ideal S192 .f32 :=
  concatenate S192 0 [⟨S64, (arg4 m c)⟩, ⟨S64, (arg6 m c)⟩, ⟨S64, (arg10 m c)⟩] Cert.KernelIdeal.Gen.concatenates_S64_S64_S64_S192_d0
/-- Row `k` of the edge list. -/
def row0 : S1600000.Idx → BitVec 32 :=
  shapeCast _ (extractStridedSlice S1x1600000 ![0, 0] (arg2 m c) slices_S2x1600000_S1x1600000_0_0) shapeCasts_S1x1600000_S1600000
def row1 : S1600000.Idx → BitVec 32 :=
  shapeCast _ (extractStridedSlice S1x1600000 ![1, 0] (arg2 m c) slices_S2x1600000_S1x1600000_1_0) shapeCasts_S1x1600000_S1600000
/-- A list of row numbers with the negative ones wrapped, as a one-column table. -/
def wrapped (r : S1600000.Idx → BitVec 32) : S1600000x1.Idx → BitVec 32 :=
  broadcastInDim S1600000x1 ![0] bcast_S1600000_S1600000x1_0 (select (cmpi .slt r (broadcastInDim S1600000 ![] bcast_S_S1600000 (constantI S_ 32 0#32))) (addi r (broadcastInDim S1600000 ![] bcast_S_S1600000 (constantI S_ 32 50000#32))) r)
/-- A node table's rows gathered by such a list. -/
def gathered (tbl : FVec Ideal S50000x4x16 .f32) (r : S1600000.Idx → BitVec 32) : FVec Ideal S1600000x4x16 .f32 :=
  Host.gather gather_S50000x4x16_S1600000x1_S1600000x4x16_12_0_n_n_0_1_1416 tbl (wrapped r)
/-- A node layer recast to heads. -/
def heads (t : FVec Ideal Cert.ReferenceIdeal.S50000x64 .f32) : FVec Ideal S50000x4x16 .f32 :=
  shapeCast _ t shapeCasts_S50000x64_S50000x4x16
def ksrc : FVec Ideal S1600000x4x16 .f32 := gathered (heads (nodeLayer m c (arg5 m c) (arg6 m c))) (row0 m c)
def qdst : FVec Ideal S1600000x4x16 .f32 := gathered (heads (nodeLayer m c (arg3 m c) (arg4 m c))) (row1 m c)
def vsrc : FVec Ideal S1600000x4x16 .f32 := gathered (heads (nodeLayer m c (arg9 m c) (arg10 m c))) (row0 m c)
def eh : FVec Ideal S1600000x4x16 .f32 := shapeCast _ (edgeLayer m c) shapeCasts_S1600000x64_S1600000x4x16
def score : FVec Ideal S1600000x4x1 .f32 := hostScore (ksrc m c) (qdst m c) (eh m c)
def msg : FVec Ideal S1600000x4x16 .f32 :=
  mulf (vsrc m c) (broadcastInDim Cert.ReferenceIdeal.S1600000x4x16 ![0, 1, 2] Cert.ReferenceIdeal.Gen.bcast_S1600000x4x1_S1600000x4x16_0_1_2 (score m c))
/-- The last stretch: the two segment sums over the destination rows, the added constant, the quotient. -/
def tail (dst : S1600000.Idx → BitVec 32) (ms : FVec Ideal S1600000x4x16 .f32) (sc : FVec Ideal S1600000x4x1 .f32) : FVec Ideal S50000x4x16 .f32 :=
  Host.divf (F := Ideal) (Host.scatterAdd (F := Ideal) scatter_S50000x4x16_S1600000x1_S1600000x4x16_12_0_0_1 (broadcastInDim S50000x4x16 ![] bcast_S_S50000x4x16 (constant (F := Ideal) S_ .f32 0x00000000#32)) (broadcastInDim S1600000x1 ![0] bcast_S1600000_S1600000x1_0 dst) ms) (broadcastInDim S50000x4x16 ![0, 1, 2] bcast_S50000x4x1_S50000x4x16_0_1_2 (addf (Host.scatterAdd (F := Ideal) scatter_S50000x4x1_S1600000x1_S1600000x4x1_12_0_0_1 (broadcastInDim S50000x4x1 ![] bcast_S_S50000x4x1 (constant (F := Ideal) S_ .f32 0x00000000#32)) (broadcastInDim S1600000x1 ![0] bcast_S1600000_S1600000x1_0 dst) sc) (broadcastInDim S50000x4x1 ![] bcast_S_S50000x4x1 (constant (F := Ideal) S_ .f32 0x358637BD#32))))

/-! ## The fold, buffer by buffer -/

/-- The node projection's output: x·[WQ|WK|WV] + [bQ|bK|bV]. -/
theorem qkv_eq : W2 m ρ c (Proc.devRef .tc main_v2) = G0 (arg0 m c) (wcat m c) (bcat m c) := by
  refine (W2_arr m ρ c 3).trans ((final0 (V1 m ρ) c).trans ?_)
  show G0 (W1 m ρ c (Proc.devRef .tc main_arg0)) (StableHlo.after (hostOps0 (F := Ideal)) (W0 m ρ c) (Proc.devRef .tc main_v0)) (StableHlo.after (hostOps0 (F := Ideal)) (W0 m ρ c) (Proc.devRef .tc main_v1)) = _
  rw [W1_keep m ρ c main_arg0 (by decide), after0_v0 (W0 m ρ c), after0_v1 (W0 m ρ c)]
  rfl

theorem q_eq : W3 m ρ c (Proc.devRef .tc main_v6) = heads (nodeLayer m c (arg3 m c) (arg4 m c)) := by
  refine (after1_v6 (W2 m ρ c)).trans ?_
  rw [qkv_eq m ρ c]
  unfold heads nodeLayer
  exact congrArg (fun X => shapeCast _ X shapeCasts_S50000x64_S50000x4x16)
    (nodes_slice_eq_0 (arg0 m c) (arg3 m c) (arg5 m c) (arg9 m c) (arg4 m c) (arg6 m c) (arg10 m c) _ (fun p q' => G0_apply _ _ _ p q'))
theorem k_eq : W3 m ρ c (Proc.devRef .tc main_v7) = heads (nodeLayer m c (arg5 m c) (arg6 m c)) := by
  refine (after1_v7 (W2 m ρ c)).trans ?_
  rw [qkv_eq m ρ c]
  unfold heads nodeLayer
  exact congrArg (fun X => shapeCast _ X shapeCasts_S50000x64_S50000x4x16)
    (nodes_slice_eq_1 (arg0 m c) (arg3 m c) (arg5 m c) (arg9 m c) (arg4 m c) (arg6 m c) (arg10 m c) _ (fun p q' => G0_apply _ _ _ p q'))
theorem v_eq : W3 m ρ c (Proc.devRef .tc main_v8) = heads (nodeLayer m c (arg9 m c) (arg10 m c)) := by
  refine (after1_v8 (W2 m ρ c)).trans ?_
  rw [qkv_eq m ρ c]
  unfold heads nodeLayer
  exact congrArg (fun X => shapeCast _ X shapeCasts_S50000x64_S50000x4x16)
    (nodes_slice_eq_2 (arg0 m c) (arg3 m c) (arg5 m c) (arg9 m c) (arg4 m c) (arg6 m c) (arg10 m c) _ (fun p q' => G0_apply _ _ _ p q'))

/-- The edge projection's output. -/
theorem e_eq : W4 m ρ c (Proc.devRef .tc main_v9) = edgeLayer m c := by
  refine (W4_arr m ρ c 3).trans ((final1 (V3 m ρ) c).trans ?_)
  show G1 (W3 m ρ c (Proc.devRef .tc main_arg1)) (W3 m ρ c (Proc.devRef .tc main_arg7)) (W3 m ρ c (Proc.devRef .tc main_arg8)) = _
  rw [W3_keep m ρ c main_arg1 (by decide) (by decide) (by decide), W3_keep m ρ c main_arg7 (by decide) (by decide) (by decide),
    W3_keep m ρ c main_arg8 (by decide) (by decide) (by decide)]
  unfold edgeLayer
  exact edges_eq (arg1 m c) (arg7 m c) (arg8 m c) _ (fun p q => G1_apply _ _ _ p q)

/-- The edge list is as launched when the third stretch reads it. -/
theorem ei_eq : W4 m ρ c (Proc.devRef .tc main_arg2) = (arg2 m c) :=
  W4_keep m ρ c main_arg2 (by decide) (by decide) (by decide) (by decide)

theorem ksrc_eq : W5 m ρ c (Proc.devRef .tc main_v21) = ksrc m c := by
  refine (after2_v21 (W4 m ρ c)).trans ?_
  rw [ei_eq m ρ c, W4_of_ne m ρ c main_v7 (by decide), k_eq m ρ c]
  rfl
theorem qdst_eq : W5 m ρ c (Proc.devRef .tc main_v28) = qdst m c := by
  refine (after2_v28 (W4 m ρ c)).trans ?_
  rw [ei_eq m ρ c, W4_of_ne m ρ c main_v6 (by decide), q_eq m ρ c]
  rfl
theorem vsrc_eq : W5 m ρ c (Proc.devRef .tc main_v35) = vsrc m c := by
  refine (after2_v35 (W4 m ρ c)).trans ?_
  rw [ei_eq m ρ c, W4_of_ne m ρ c main_v8 (by decide), v_eq m ρ c]
  rfl
theorem eh_eq : W5 m ρ c (Proc.devRef .tc main_v10) = eh m c := by
  refine (after2_v10 (W4 m ρ c)).trans ?_
  rw [e_eq m ρ c]
  rfl
theorem dst_eq : W6 m ρ c (Proc.devRef .tc main_v14) = row1 m c := by
  refine (W6_of_ne m ρ c main_v14 (by decide)).trans ((after2_v14 (W4 m ρ c)).trans ?_)
  rw [ei_eq m ρ c]
  rfl

/-- The score region's outputs. -/
theorem score_out : W6 m ρ c (Proc.devRef .tc main_v36_1) = score m c := by
  refine (W6_arr m ρ c 5).trans ((final2_5 (V5 m ρ) c).trans ?_)
  show Gs (W5 m ρ c (Proc.devRef .tc main_v21)) (W5 m ρ c (Proc.devRef .tc main_v28)) (W5 m ρ c (Proc.devRef .tc main_v10)) = _
  rw [ksrc_eq m ρ c, qdst_eq m ρ c, eh_eq m ρ c]
  exact score_eq (ksrc m c) (qdst m c) (eh m c) _ (fun e h => Gs_apply _ _ _ e h 0)
theorem msg_out : W6 m ρ c (Proc.devRef .tc main_v36_0) = msg m c := by
  refine (W6_arr m ρ c 4).trans ((final2_4 (V5 m ρ) c).trans ?_)
  show Gm (W5 m ρ c (Proc.devRef .tc main_v21)) (W5 m ρ c (Proc.devRef .tc main_v28)) (W5 m ρ c (Proc.devRef .tc main_v35)) (W5 m ρ c (Proc.devRef .tc main_v10)) = _
  rw [ksrc_eq m ρ c, qdst_eq m ρ c, vsrc_eq m ρ c, eh_eq m ρ c]
  exact msg_eq (vsrc m c) (score m c) _ (fun e h d => (Gm_apply _ _ _ _ e h d).trans
    (congrArg (vsrc m c (ix3 e h d) * ·) (hostScore_apply (ksrc m c) (qdst m c) (eh m c) e h).symm))

/-- THE KERNEL PROGRAM'S RESULT as a term of the argument arrays. -/
theorem result_eq : W7 m ρ c (Proc.devRef .tc main_v46) = tail (row1 m c) (msg m c) (score m c) := by
  refine (after3_v46 (W6 m ρ c)).trans ?_
  rw [dst_eq m ρ c, msg_out m ρ c, score_out m ρ c]
  rfl

end Cert.KernelIdeal.Frame

end
-- ==== Proof.RefBridge.lean ====
/-
  The reference program's composed result term, at arguments that agree with the kernel program's, is the kernel
  program's result term: the same dense layers recast to heads, the same gathers by the same wrapped row numbers, the
  same clamped exponentiated score and values-times-score, the same two segment sums, added constant and quotient.
  The two programs name their shapes, their dimension records and their side conditions separately, but those are the
  same literals, the same records and proofs of the same propositions.
-/
import proofs.«113294_j27779848470630_2_alg».proof.Proof.KiBridge
import proofs.«113294_j27779848470630_2_alg».proof.Proof.Gen.ReferenceIdeal.Run

set_option maxRecDepth 16384

noncomputable section

namespace Cert.KernelIdeal.Frame

open Cert.KernelIdeal Cert.KernelIdeal.Gen Cert.Bridge
open Idealize.ShloMosaic Idealize.ShloMosaic.TcCoe Idealize.SL.Sem

theorem ref_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Value.res_main_v64 m' c : S50000x4x16.Idx → EReal) = tail (row1 m c) (msg m c) (score m c) := by
  obtain ⟨h0, h1, h2, h3, h4, h5, h6, h7, h8, h9, h10⟩ := h
  unfold Cert.ReferenceIdeal.Value.res_main_v64
  rw [h0, h1, h2, h3, h4, h5, h6, h7, h8, h9, h10]
  rfl

end Cert.KernelIdeal.Frame

end
-- ==== Proof.lean ====
/-
  The five claims of this certificate.

  The three frames: each kernel program is seven segments — four stretches of host operations around three kernel
  regions — and runs to the end with every argument array as launched (the run of the segments, at the word-level
  instance and at the ideal one); the reference is host operations only, and its frame is its run with the result
  dropped.  The ideal pass rewrote nothing, so the idealized kernel program is the printed one read at the ideal
  instance.  And at the ideal instance, from memories that agree on the arguments, both programs end holding one and
  the same array: the kernel program's final buffer, walked back through its fold to the arguments, is the reference's
  composed term of them.
-/
import proofs.«113294_j27779848470630_2_alg».proof.Defs
import proofs.«113294_j27779848470630_2_alg».proof.Proof.Gen.Kernel
import proofs.«113294_j27779848470630_2_alg».proof.Proof.Gen.KernelIdeal
import proofs.«113294_j27779848470630_2_alg».proof.Proof.Gen.ReferenceIdeal
import proofs.«113294_j27779848470630_2_alg».proof.Proof.Gen.Pre_finite_inputs
import proofs.«113294_j27779848470630_2_alg».proof.Proof.Gen.ReferenceIdeal.Run
import proofs.«113294_j27779848470630_2_alg».proof.Proof.KRun
import proofs.«113294_j27779848470630_2_alg».proof.Proof.KiRun
import proofs.«113294_j27779848470630_2_alg».proof.Proof.KiBridge
import proofs.«113294_j27779848470630_2_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Frame.frame m ρ
/-- So does the idealized one. -/
theorem frame_ki : Cert.frame_KernelIdeal := fun m ρ _ => Cert.KernelIdeal.Frame.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote no operation. -/
theorem preserves : Cert.preserves_Kernel_KernelIdeal := trivial
/-- Both idealized programs end holding the same array. -/
theorem algebraic : Cert.algebraic_KernelIdeal_ReferenceIdeal := by
  intro m ρ m' ρ' _ hagree
  refine ⟨fun c => Cert.KernelIdeal.Frame.tail (Cert.KernelIdeal.Frame.row1 m c) (Cert.KernelIdeal.Frame.msg m c) (Cert.KernelIdeal.Frame.score m c), ?_, ?_⟩
  · exact (θ_run Cert.KernelIdeal.defs _ _).mono (fun r h c =>
      ⟨(h c _ (Cert.KernelIdeal.Frame.mem_uc Cert.KernelIdeal.main_v46 (by decide))).trans (Cert.KernelIdeal.Frame.result_eq m ρ c),
      (h c _ (Cert.KernelIdeal.Frame.mem_uc Cert.KernelIdeal.main_arg0 (by decide))).trans (Cert.KernelIdeal.Frame.W7_main_arg0 m ρ c),
      (h c _ (Cert.KernelIdeal.Frame.mem_uc Cert.KernelIdeal.main_arg1 (by decide))).trans (Cert.KernelIdeal.Frame.W7_main_arg1 m ρ c),
      (h c _ (Cert.KernelIdeal.Frame.mem_uc Cert.KernelIdeal.main_arg2 (by decide))).trans (Cert.KernelIdeal.Frame.W7_main_arg2 m ρ c),
      (h c _ (Cert.KernelIdeal.Frame.mem_uc Cert.KernelIdeal.main_arg3 (by decide))).trans (Cert.KernelIdeal.Frame.W7_main_arg3 m ρ c),
      (h c _ (Cert.KernelIdeal.Frame.mem_uc Cert.KernelIdeal.main_arg4 (by decide))).trans (Cert.KernelIdeal.Frame.W7_main_arg4 m ρ c),
      (h c _ (Cert.KernelIdeal.Frame.mem_uc Cert.KernelIdeal.main_arg5 (by decide))).trans (Cert.KernelIdeal.Frame.W7_main_arg5 m ρ c),
      (h c _ (Cert.KernelIdeal.Frame.mem_uc Cert.KernelIdeal.main_arg6 (by decide))).trans (Cert.KernelIdeal.Frame.W7_main_arg6 m ρ c),
      (h c _ (Cert.KernelIdeal.Frame.mem_uc Cert.KernelIdeal.main_arg7 (by decide))).trans (Cert.KernelIdeal.Frame.W7_main_arg7 m ρ c),
      (h c _ (Cert.KernelIdeal.Frame.mem_uc Cert.KernelIdeal.main_arg8 (by decide))).trans (Cert.KernelIdeal.Frame.W7_main_arg8 m ρ c),
      (h c _ (Cert.KernelIdeal.Frame.mem_uc Cert.KernelIdeal.main_arg9 (by decide))).trans (Cert.KernelIdeal.Frame.W7_main_arg9 m ρ c),
      (h c _ (Cert.KernelIdeal.Frame.mem_uc Cert.KernelIdeal.main_arg10 (by decide))).trans (Cert.KernelIdeal.Frame.W7_main_arg10 m ρ c)⟩) (Cert.KernelIdeal.Frame.run m ρ)
  · exact (θ_run Cert.ReferenceIdeal.defs _ _).mono (fun _ h c =>
      ⟨(h c).1.trans (Cert.KernelIdeal.Frame.ref_eq m m' c (hagree c)), (h c).2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
